-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x9 : Shape := ⟨2, ![100000, 9]⟩
abbrev S2x1600000 : Shape := ⟨2, ![2, 1600000]⟩
abbrev S100000 : Shape := ⟨1, ![100000]⟩
abbrev S9x128 : Shape := ⟨2, ![9, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x9 : S_.BroadcastsInDim S100000x9 (![] : Fin 0 → Fin S100000x9.rank)
  reducesTo_S100000x9_S_d0_1 : S100000x9.ReducesTo [0, 1] S_
  h_S_ : 0 < S_.numel
  bcast_S_S9x128 : S_.BroadcastsInDim S9x128 (![] : Fin 0 → Fin S9x128.rank)
  reducesTo_S9x128_S_d0_1 : S9x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x9 .f32) (main_arg1 : IVec S2x1600000 32) (main_arg2 : IVec S100000 32) (main_arg3 : FVec F S9x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) : IVec S_ 1 :=
  let main_v0 : FVec F S100000x9 .f32 := Host.absf main_arg0
  let main_cst : FVec F S_ .f32 := constant S_ .f32 0x7F800000#32
  let main_v1 : FVec F S100000x9 .f32 := broadcastInDim S100000x9 ![] bcast_S_S100000x9 main_cst
  let main_v2 : IVec S100000x9 1 := cmpf .olt main_v0 main_v1
  let main_c : IVec S_ 1 := constantI S_ 1 1#1
  let main_v3 : IVec S_ 1 := (fun x v => Host.reduce IntOp.andi x v reducesTo_S100000x9_S_d0_1 h_S_) main_v2 main_c
  let main_v4 : FVec F S9x128 .f32 := Host.absf main_arg3
  let main_cst_0 : FVec F S_ .f32 := constant S_ .f32 0x7F800000#32
  let main_v5 : FVec F S9x128 .f32 := broadcastInDim S9x128 ![] bcast_S_S9x128 main_cst_0
  let main_v6 : IVec S9x128 1 := cmpf .olt main_v4 main_v5
  let main_c_1 : IVec S_ 1 := constantI S_ 1 1#1
  let main_v7 : IVec S_ 1 := (fun x v => Host.reduce IntOp.andi x v reducesTo_S9x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x9 : Shape := ⟨2, ![100000, 9]⟩
abbrev S2x1600000 : Shape := ⟨2, ![2, 1600000]⟩
abbrev S100000 : Shape := ⟨1, ![100000]⟩
abbrev S9x128 : Shape := ⟨2, ![9, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x9 : Shape := ⟨2, ![10000, 9]⟩
abbrev S10000x128 : Shape := ⟨2, ![10000, 128]⟩
abbrev S1700000x128 : Shape := ⟨2, ![1700000, 128]⟩
abbrev S10000x1 : Shape := ⟨2, ![10000, 1]⟩
abbrev S1x128 : Shape := ⟨2, ![1, 128]⟩
abbrev S64 : Shape := ⟨1, ![64]⟩
abbrev S100000x1 : Shape := ⟨2, ![100000, 1]⟩
abbrev S64x128 : Shape := ⟨2, ![64, 128]⟩
abbrev S64x1 : Shape := ⟨2, ![64, 1]⟩
abbrev S1x1 : Shape := ⟨2, ![1, 1]⟩

abbrev nBuf : Space → Nat
  | .hbm => 126
  | .vmem => 48
  | .smem => 0
  | _ => 0

abbrev bufTy : (tb : Table) → Fin (tcTables nBuf tb) → BufTy
  | .hbm, ⟨0, _⟩ => ⟨S100000x9, .f32⟩
  | .hbm, ⟨1, _⟩ => ⟨S2x1600000, .i32⟩
  | .hbm, ⟨2, _⟩ => ⟨S100000, .i32⟩
  | .hbm, ⟨3, _⟩ => ⟨S9x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S1700000x1, .f32⟩
  | .hbm, ⟨55, _⟩ => ⟨S100000x128, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000x128, .f32⟩
  | .hbm, ⟨99, _⟩ => ⟨S1700000x128, .f32⟩
  | .hbm, ⟨100, _⟩ => ⟨S_, .f32⟩
  | .hbm, ⟨101, _⟩ => ⟨S100000x128, .f32⟩
  | .hbm, ⟨102, _⟩ => ⟨S1700000x1, .i32⟩
  | .hbm, ⟨103, _⟩ => ⟨S100000x128, .f32⟩
  | .hbm, ⟨104, _⟩ => ⟨S1x128, .f32⟩
  | .hbm, ⟨105, _⟩ => ⟨S100000x128, .f32⟩
  | .hbm, ⟨106, _⟩ => ⟨S_, .f32⟩
  | .hbm, ⟨107, _⟩ => ⟨S100000, .f32⟩
  | .hbm, ⟨108, _⟩ => ⟨S_, .f32⟩
  | .hbm, ⟨109, _⟩ => ⟨S64, .f32⟩
  | .hbm, ⟨110, _⟩ => ⟨S100000x1, .i32⟩
  | .hbm, ⟨111, _⟩ => ⟨S64, .f32⟩
  | .hbm, ⟨112, _⟩ => ⟨S_, .f32⟩
  | .hbm, ⟨113, _⟩ => ⟨S64x128, .f32⟩
  | .hbm, ⟨114, _⟩ => ⟨S100000x1, .i32⟩
  | .hbm, ⟨115, _⟩ => ⟨S64x128, .f32⟩
  | .hbm, ⟨116, _⟩ => ⟨S_, .f32⟩
  | .hbm, ⟨117, _⟩ => ⟨S64, .f32⟩
  | .hbm, ⟨118, _⟩ => ⟨S64, .f32⟩
  | .hbm, ⟨119, _⟩ => ⟨S64x1, .f32⟩
  | .hbm, ⟨120, _⟩ => ⟨S64x128, .f32⟩
  | .hbm, ⟨121, _⟩ => ⟨S64x128, .f32⟩
  | .hbm, ⟨122, _⟩ => ⟨S64x1, .f32⟩
  | .hbm, ⟨123, _⟩ => ⟨S1x1, .f32⟩
  | .hbm, ⟨124, _⟩ => ⟨S64x1, .f32⟩
  | .hbm, ⟨125, _⟩ => ⟨S64x1, .f32⟩
  | .local _ .vmem, ⟨0, _⟩ => ⟨S10000x9, .f32⟩
  | .local _ .vmem, ⟨1, _⟩ => ⟨S10000x9, .f32⟩
  | .local _ .vmem, ⟨2, _⟩ => ⟨S9x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S128x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x1, .f32⟩
  | .local _ .vmem, ⟨24, _⟩ => ⟨S10000x1, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S1x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S128x128, .f32⟩
  | .local _ .vmem, ⟨35, _⟩ => ⟨S10000x128, .f32⟩
  | .local _ .vmem, ⟨36, _⟩ => ⟨S10000x128, .f32⟩
  | .local _ .vmem, ⟨37, _⟩ => ⟨S10000x128, .f32⟩
  | .local _ .vmem, ⟨38, _⟩ => ⟨S10000x128, .f32⟩
  | .local _ .vmem, ⟨39, _⟩ => ⟨S10000x1, .f32⟩
  | .local _ .vmem, ⟨40, _⟩ => ⟨S10000x1, .f32⟩
  | .local _ .vmem, ⟨41, _⟩ => ⟨S10000x128, .f32⟩
  | .local _ .vmem, ⟨42, _⟩ => ⟨S10000x128, .f32⟩
  | .local _ .vmem, ⟨43, _⟩ => ⟨S10000x128, .f32⟩
  | .local _ .vmem, ⟨44, _⟩ => ⟨S10000x128, .f32⟩
  | .local _ .vmem, ⟨45, _⟩ => ⟨S1x128, .f32⟩
  | .local _ .vmem, ⟨46, _⟩ => ⟨S10000x128, .f32⟩
  | .local _ .vmem, ⟨47, _⟩ => ⟨S10000x128, .f32⟩
  | _, _ => ⟨S100000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_c_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_15 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_16 : Ref sig .tc := ⟨.hbm, 106, rfl⟩
abbrev main_v75 : Ref sig .tc := ⟨.hbm, 107, rfl⟩
abbrev main_cst_17 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_18 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_19 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg1_1 : Ref sig .tc := ⟨.vmem, 40, rfl⟩
abbrev cc7_stg2_0 : Ref sig .tc := ⟨.vmem, 41, rfl⟩
abbrev cc7_stg2_1 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg2_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem1_1 : DmaSem sig := 40
abbrev cc7_sem2_0 : DmaSem sig := 41
abbrev cc7_sem2_1 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem2_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![170], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![170], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x9_S10000x9_0_0 : ∀ a, (![0, 0] : Fin 2 → Nat) a + S10000x9.size a ≤ S10000x9.size a
  h_S10000x9 : 0 < S10000x9.numel
  bitsLt_bf16_f32 : FTy.bits .bf16 < FTy.bits .f32
  inb_S9x128_S9x128_0_0 : ∀ a, (![0, 0] : Fin 2 → Nat) a + S9x128.size a ≤ S9x128.size a
  h_S9x128 : 0 < S9x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  bcast_S_S64 : S_.BroadcastsInDim S64 (![] : Fin 0 → Fin S64.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x9_S9x128_S10000x128_1_0_0_1_n_n_wf : DotDims.WF S10000x9 S9x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x9.size a ≤ S100000x9.size a
  hwx0_0 : ∀ i : grid0.Coords, EltTy.bits .f32 = 32 ∨ (Rect.block (s := S100000x9) S10000x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x128.size a ≤ S9x128.size a
  hwx0_1 : ∀ i : grid0.Coords, EltTy.bits .f32 = 32 ∨ (Rect.block (s := S9x128) S9x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1700000x128.size a
  hwx1_0 : ∀ i : grid1.Coords, EltTy.bits .f32 = 32 ∨ (Rect.block (s := S1700000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S1700000x128.size a
  hwx1_2 : ∀ i : grid1.Coords, EltTy.bits .f32 = 32 ∨ (Rect.block (s := S1700000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S1700000x128.size a
  hwx4_0 : ∀ i : grid4.Coords, EltTy.bits .f32 = 32 ∨ (Rect.block (s := S1700000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1700000x1.size a
  hwx4_1 : ∀ i : grid4.Coords, EltTy.bits .f32 = 32 ∨ (Rect.block (s := S1700000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S1700000x128.size a
  hwx4_2 : ∀ i : grid4.Coords, EltTy.bits .f32 = 32 ∨ (Rect.block (s := S1700000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S100000x128.size a
  hwx5_2 : ∀ i : grid5.Coords, EltTy.bits .f32 = 32 ∨ (Rect.block (s := S100000x128) S10000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x128.size a ≤ S100000x128.size a
  hwx6_2 : ∀ i : grid6.Coords, EltTy.bits .f32 = 32 ∨ (Rect.block (s := S100000x128) S10000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S1700000x128.size a
  hwx7_0 : ∀ i : grid7.Coords, EltTy.bits .f32 = 32 ∨ (Rect.block (s := S1700000x128) S10000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x1.size a ≤ S1700000x1.size a
  hwx7_1 : ∀ i : grid7.Coords, EltTy.bits .f32 = 32 ∨ (Rect.block (s := S1700000x1) S10000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x128.size a ≤ S1700000x128.size a
  hwx7_2 : ∀ i : grid7.Coords, EltTy.bits .f32 = 32 ∨ (Rect.block (s := S1700000x128) S10000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S100000x128.size a
  hwx8_0 : ∀ i : grid8.Coords, EltTy.bits .f32 = 32 ∨ (Rect.block (s := S100000x128) S10000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x128.size a ≤ S100000x128.size a
  hwx8_2 : ∀ i : grid8.Coords, EltTy.bits .f32 = 32 ∨ (Rect.block (s := S100000x128) S10000x128.size (cc8_transform_2 i) (hinb8_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x9_S9x128_S10000x128_1_0_0_1_n_n : DotDims S10000x9 S9x128 S10000x128 where
  lhsContracting := [1]
  rhsContracting := [0]
  lhsNonContracting := [0]
  rhsNonContracting := [1]
  lhsBatch := []
  rhsBatch := []
  wf := dot_S10000x9_S9x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S10000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S9x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v54) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v55) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v58) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v60) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v60) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v61) S10000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v68) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v32) S10000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v69) S10000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v72) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v73) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v74) S10000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S100000x9 : Shape := ⟨2, ![100000, 9]⟩
abbrev S2x1600000 : Shape := ⟨2, ![2, 1600000]⟩
abbrev S100000 : Shape := ⟨1, ![100000]⟩
abbrev S9x128 : Shape := ⟨2, ![9, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S64 : Shape := ⟨1, ![64]⟩
abbrev S100000x1 : Shape := ⟨2, ![100000, 1]⟩
abbrev S64x128 : Shape := ⟨2, ![64, 128]⟩
abbrev S64x1 : Shape := ⟨2, ![64, 1]⟩
abbrev S1x1 : Shape := ⟨2, ![1, 1]⟩

abbrev nBuf : Space → Nat
  | .hbm => 138
  | .vmem => 0
  | .smem => 0
  | _ => 0

abbrev hbmTy0_0 (i : Nat) : BufTy := match i % 128 with
  | 0 => ⟨S100000x9, .f32⟩
  | 1 => ⟨S2x1600000, .i32⟩
  | 2 => ⟨S100000, .i32⟩
  | 3 => ⟨S9x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S1700000x1, .f32⟩
  | 55 => ⟨S100000x128, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x128, .f32⟩
  | 87 => ⟨S1700000x128, .f32⟩
  | 88 => ⟨S1700000x128, .f32⟩
  | 89 => ⟨S_, .f32⟩
  | 90 => ⟨S100000x128, .f32⟩
  | 91 => ⟨S1700000x1, .i32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000x128, .f32⟩
  | 109 => ⟨S1700000x128, .f32⟩
  | 110 => ⟨S1700000x128, .f32⟩
  | 111 => ⟨S_, .f32⟩
  | 112 => ⟨S100000x128, .f32⟩
  | 113 => ⟨S1700000x1, .i32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S100000, .f32⟩
  | 120 => ⟨S_, .f32⟩
  | 121 => ⟨S64, .f32⟩
  | 122 => ⟨S100000x1, .i32⟩
  | 123 => ⟨S64, .f32⟩
  | 124 => ⟨S_, .f32⟩
  | 125 => ⟨S64x128, .f32⟩
  | 126 => ⟨S100000x1, .i32⟩
  | 127 => ⟨S64x128, .f32⟩
  | _ => ⟨S100000x9, .f32⟩

abbrev hbmTy0_1 (i : Nat) : BufTy := match i % 128 with
  | 0 => ⟨S_, .f32⟩
  | 1 => ⟨S64, .f32⟩
  | 2 => ⟨S64, .f32⟩
  | 3 => ⟨S64x1, .f32⟩
  | 4 => ⟨S64x128, .f32⟩
  | 5 => ⟨S64x128, .f32⟩
  | 6 => ⟨S64x1, .f32⟩
  | 7 => ⟨S1x1, .f32⟩
  | 8 => ⟨S64x1, .f32⟩
  | 9 => ⟨S64x1, .f32⟩
  | _ => ⟨S100000x9, .f32⟩

abbrev hbmTy (i : Nat) : BufTy := match i / 128 with
  | 0 => hbmTy0_0 i
  | 1 => hbmTy0_1 i
  | _ => ⟨S100000x9, .f32⟩

abbrev bufTy : (tb : Table) → Fin (tcTables nBuf tb) → BufTy
  | .hbm, ⟨i, _⟩ => hbmTy i
  | _, _ => ⟨S100000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_call2_cst : Ref sig .tc := ⟨.hbm, 96, rfl⟩
abbrev main_call2_v0 : Ref sig .tc := ⟨.hbm, 97, rfl⟩
abbrev main_v66 : Ref sig .tc := ⟨.hbm, 98, rfl⟩
abbrev main_v67 : Ref sig .tc := ⟨.hbm, 99, rfl⟩
abbrev main_c_13 : Ref sig .tc := ⟨.hbm, 100, rfl⟩
abbrev main_v68 : Ref sig .tc := ⟨.hbm, 101, rfl⟩
abbrev main_v69 : Ref sig .tc := ⟨.hbm, 102, rfl⟩
abbrev main_c_14 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_15 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_16 : Ref sig .tc := ⟨.hbm, 118, rfl⟩
abbrev main_v83 : Ref sig .tc := ⟨.hbm, 119, rfl⟩
abbrev main_cst_17 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_18 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_19 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64 : S_.BroadcastsInDim S64 (![] : Fin 0 → Fin S64.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x9_S9x128_S100000x128_1_0_0_1_n_n_wf : DotDims.WF S100000x9 S9x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x1_S64x1_1_0_0_1_n_n_wf : DotDims.WF S64x128 S128x1 S64x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x9_S9x128_S100000x128_1_0_0_1_n_n : DotDims S100000x9 S9x128 S100000x128 where
  lhsContracting := [1]
  rhsContracting := [0]
  lhsNonContracting := [0]
  rhsNonContracting := [1]
  lhsBatch := []
  rhsBatch := []
  wf := dot_S100000x9_S9x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.Spec.lean ====
/-
  What both programs compute, as one function of the argument arrays.  A graph of 100000 nodes and 1600000 directed
  edges, every node given a self loop: `src` and `dst` are the 1700000 edge endpoints.  The degree of a node is the
  number of edges ending at it; an edge's coefficient is rsqrt(deg(src)) · rsqrt(deg(dst)) (zero where a degree is not
  positive), kept as a column `norm`.  One propagation `prop` gathers the rows of a node array along `src`, scales each
  gathered row by its edge's coefficient, and sums the rows into their `dst` nodes.  A layer multiplies the node features
  by a weight matrix, propagates, and adds a bias row; the first two layers then take max(·, 0).  The head sums the node
  rows of each of 64 graphs, divides by max(count, 1), multiplies by a [128, 1] matrix and adds a bias.
  The terms below are the reference program's own operations, cut at these joints; `ref_eq` says so.
-/
import proofs.«107702_j67740224193041_2_alg».proof.Proof.RefRunPatched

set_option maxRecDepth 16384

noncomputable section

namespace Cert.Spec

open Cert.ReferenceIdeal Cert.ReferenceIdeal.Gen
open Idealize.ShloMosaic Idealize.ShloMosaic.TcCoe Idealize.SL.Sem

variable {F : FTy → Type} [FloatOps F]

/-- The edges' source nodes: row 0 of the edge list, then every node once (the self loops). -/
def src (x1 : IVec S2x1600000 32) : IVec S1700000 32 :=
  (concatenate S1700000 0 [⟨S1600000, (shapeCast _ (extractStridedSlice S1x1600000 ![0, 0] x1 slices_S2x1600000_S1x1600000_0_0) shapeCasts_S1x1600000_S1600000)⟩, ⟨S100000, (iotaInDim S100000 32 0)⟩] concatenates_S1600000_S100000_S1700000_d0)

/-- The edges' destination nodes: row 1 of the edge list, then every node once. -/
def dst (x1 : IVec S2x1600000 32) : IVec S1700000 32 :=
  (concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0)

/-- The gather's index column: `src`, a negative index wrapped by the node count. -/
def gidx (x1 : IVec S2x1600000 32) : IVec S1700000x1 32 :=
  (broadcastInDim S1700000x1 ![0] bcast_S1700000_S1700000x1_0 (select (cmpi .slt (src x1) (broadcastInDim S1700000 ![] bcast_S_S1700000 (constantI S_ 32 0#32))) (addi (src x1) (broadcastInDim S1700000 ![] bcast_S_S1700000 (constantI S_ 32 100000#32))) (src x1)))

/-- The edges' coefficients rsqrt(deg(src)) · rsqrt(deg(dst)), as a column. -/
def norm (x1 : IVec S2x1600000 32) : FVec F S1700000x1 .f32 :=
  (broadcastInDim S1700000x1 ![0] bcast_S1700000_S1700000x1_0 (mulf (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (dst x1)) (broadcastInDim S1700000 ![] bcast_S_S1700000 (constant S_ .f32 0x3F800000#32))) (broadcastInDim S100000 ![] bcast_S_S100000 (constant S_ .f32 0x00000000#32))) (Host.rsqrt (maximumf (Host.scatterAdd scatter_S100000_S1700000x1_S1700000_n_0_0_1 (broadcastInDim S100000 ![] bcast_S_S100000 (constant S_ .f32 0x00000000#32)) (broadcastInDim S1700000x1 ![0] bcast_S1700000_S1700000x1_0 (dst x1)) (broadcastInDim S1700000 ![] bcast_S_S1700000 (constant S_ .f32 0x3F800000#32))) (broadcastInDim S100000 ![] bcast_S_S100000 (constant S_ .f32 0x2B8CBCCC#32)))) (broadcastInDim S100000 ![] bcast_S_S100000 (id (constant S_ .f32 0x00000000#32)))) (broadcastInDim S1700000x1 ![0] bcast_S1700000_S1700000x1_0 (select (cmpi .slt (src x1) (broadcastInDim S1700000 ![] bcast_S_S1700000 (constantI S_ 32 0#32))) (addi (src x1) (broadcastInDim S1700000 ![] bcast_S_S1700000 (constantI S_ 32 100000#32))) (src x1)))) (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (dst x1)) (broadcastInDim S1700000 ![] bcast_S_S1700000 (constant S_ .f32 0x3F800000#32))) (broadcastInDim S100000 ![] bcast_S_S100000 (constant S_ .f32 0x00000000#32))) (Host.rsqrt (maximumf (Host.scatterAdd scatter_S100000_S1700000x1_S1700000_n_0_0_1 (broadcastInDim S100000 ![] bcast_S_S100000 (constant S_ .f32 0x00000000#32)) (broadcastInDim S1700000x1 ![0] bcast_S1700000_S1700000x1_0 (dst x1)) (broadcastInDim S1700000 ![] bcast_S_S1700000 (constant S_ .f32 0x3F800000#32))) (broadcastInDim S100000 ![] bcast_S_S100000 (constant S_ .f32 0x2B8CBCCC#32)))) (broadcastInDim S100000 ![] bcast_S_S100000 (id (constant S_ .f32 0x00000000#32)))) (broadcastInDim S1700000x1 ![0] bcast_S1700000_S1700000x1_0 (select (cmpi .slt (dst x1) (broadcastInDim S1700000 ![] bcast_S_S1700000 (constantI S_ 32 0#32))) (addi (dst x1) (broadcastInDim S1700000 ![] bcast_S_S1700000 (constantI S_ 32 100000#32))) (dst x1))))))

/-- The all-zero node array. -/
def zeroRows : FVec F S100000x128 .f32 :=
  (broadcastInDim S100000x128 ![] bcast_S_S100000x128 (constant S_ .f32 0x00000000#32))

/-- A bias vector as a row under every node. -/
def biasRows (b : FVec F S128 .f32) : FVec F S100000x128 .f32 :=
  (broadcastInDim S100000x128 ![0, 1] bcast_S1x128_S100000x128_0_1 (broadcastInDim S1x128 ![1] bcast_S128_S1x128_1 b))

/-- The gathered and scaled messages of a node array. -/
def msgs (hw : FVec F S100000x128 .f32) (x1 : IVec S2x1600000 32) : FVec F S1700000x128 .f32 :=
  (mulf (Host.gather gather_S100000x128_S1700000x1_S1700000x128_1_0_n_n_0_1_1128 hw (gidx x1)) (broadcastInDim S1700000x128 ![0, 1] bcast_S1700000x1_S1700000x128_0_1 (norm (F := F) x1)))

/-- One propagation: the messages summed into their destination nodes. -/
def prop (hw : FVec F S100000x128 .f32) (x1 : IVec S2x1600000 32) : FVec F S100000x128 .f32 :=
  (Host.scatterAdd scatter_S100000x128_S1700000x1_S1700000x128_1_0_0_1 (zeroRows (F := F)) (broadcastInDim S1700000x1 ![0] bcast_S1700000_S1700000x1_0 (dst x1)) (msgs hw x1))

/-- A layer after its matrix product: propagate, add the bias row. -/
def conv (hw : FVec F S100000x128 .f32) (x1 : IVec S2x1600000 32) (b : FVec F S128 .f32) : FVec F S100000x128 .f32 :=
  addf (prop hw x1) (biasRows b)

/-- max(·, 0) of a node array. -/
def relu (z : FVec F S100000x128 .f32) : FVec F S100000x128 .f32 := maximumf z (zeroRows (F := F))

def hw1 (x0 : FVec F S100000x9 .f32) (x3 : FVec F S9x128 .f32) : FVec F S100000x128 .f32 :=
  Host.dotGeneral dot_S100000x9_S9x128_S100000x128_1_0_0_1_n_n none x0 x3
def hwNext (h : FVec F S100000x128 .f32) (w : FVec F S128x128 .f32) : FVec F S100000x128 .f32 :=
  Host.dotGeneral dot_S100000x128_S128x128_S100000x128_1_0_0_1_n_n none h w

/-- The mean over each graph's nodes, then the linear head. -/
def head (h3 : FVec F S100000x128 .f32) (x2 : IVec S100000 32) (x9 : FVec F S128x1 .f32) (x10 : FVec F S1 .f32) : FVec F S64x1 .f32 :=
  addf (Host.dotGeneral dot_S64x128_S128x1_S64x1_1_0_0_1_n_n none (Host.divf (Host.scatterAdd scatter_S64x128_S100000x1_S100000x128_1_0_0_1 (broadcastInDim S64x128 ![] bcast_S_S64x128 (constant S_ .f32 0x00000000#32)) (broadcastInDim S100000x1 ![0] bcast_S100000_S100000x1_0 x2) h3) (broadcastInDim S64x128 ![0, 1] bcast_S64x1_S64x128_0_1 (broadcastInDim S64x1 ![0] bcast_S64_S64x1_0 (maximumf (Host.scatterAdd scatter_S64_S100000x1_S100000_n_0_0_1 (broadcastInDim S64 ![] bcast_S_S64 (constant S_ .f32 0x00000000#32)) (broadcastInDim S100000x1 ![0] bcast_S100000_S100000x1_0 x2) (broadcastInDim S100000 ![] bcast_S_S100000 (constant S_ .f32 0x3F800000#32))) (broadcastInDim S64 ![] bcast_S_S64 (constant S_ .f32 0x3F800000#32)))))) x9) (broadcastInDim S64x1 ![0, 1] bcast_S1x1_S64x1_0_1 (broadcastInDim S1x1 ![1] bcast_S1_S1x1_1 x10))

def h1 (x0 : FVec F S100000x9 .f32) (x1 : IVec S2x1600000 32) (x3 : FVec F S9x128 .f32) (x4 : FVec F S128 .f32) : FVec F S100000x128 .f32 :=
  relu (conv (hw1 x0 x3) x1 x4)
def h2 (x0 : FVec F S100000x9 .f32) (x1 : IVec S2x1600000 32) (x3 : FVec F S9x128 .f32) (x4 : FVec F S128 .f32)
    (x5 : FVec F S128x128 .f32) (x6 : FVec F S128 .f32) : FVec F S100000x128 .f32 :=
  relu (conv (hwNext (h1 x0 x1 x3 x4) x5) x1 x6)
def h3 (x0 : FVec F S100000x9 .f32) (x1 : IVec S2x1600000 32) (x3 : FVec F S9x128 .f32) (x4 : FVec F S128 .f32)
    (x5 : FVec F S128x128 .f32) (x6 : FVec F S128 .f32) (x7 : FVec F S128x128 .f32) (x8 : FVec F S128 .f32) : FVec F S100000x128 .f32 :=
  conv (hwNext (h2 x0 x1 x3 x4 x5 x6) x7) x1 x8

/-- The whole network. -/
def out (x0 : FVec F S100000x9 .f32) (x1 : IVec S2x1600000 32) (x2 : IVec S100000 32) (x3 : FVec F S9x128 .f32) (x4 : FVec F S128 .f32)
    (x5 : FVec F S128x128 .f32) (x6 : FVec F S128 .f32) (x7 : FVec F S128x128 .f32) (x8 : FVec F S128 .f32)
    (x9 : FVec F S128x1 .f32) (x10 : FVec F S1 .f32) : FVec F S64x1 .f32 :=
  head (h3 x0 x1 x3 x4 x5 x6 x7 x8) x2 x9 x10

/-- The reference program's result term is the network of its arguments. -/
theorem ref_eq (m : (ℓ : Loc nD τ sig) → Buf (Elt F) ℓ) (c : Dev nD) :
    Cert.ReferenceIdeal.ValueP.res_main_v98 m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.ValueP.res_main_v98
  rfl

end Cert.Spec

end
-- ==== Proof.RunValue.lean ====
/-
  The idealized kernel's run with its result named.  @main is nineteen segments: ten stretches of host operations
  and nine row-tiled kernels between them.  The buffer contents at the segment boundaries form a fold from the launch
  memory: a stretch applies its operations in order, a kernel leaves its output array at what its write-backs leave and
  every other buffer as it found it.  Every weakly fair execution terminates with every unscoped buffer at the last
  boundary's contents; read at the result buffer this names the result, and read at an argument it walks back
  through the fold to the launch memory, as no segment writes an argument.
-/
import proofs.«107702_j67740224193041_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, with the
    result buffer at the last boundary's contents and the argument arrays as launched. -/
theorem run_value : θ_run defs (onTc (τ := τ) (main (F := F))) ⟨m, fun _ => 0, ρ⟩ (fun r => ∀ c : Dev nD,
      r.2.mem ((c.tc : Thread nD τ).loc main_v90) = W19 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v90 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c)⟩)

end Cert.KernelIdeal.RunValue

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibRowTileDot.lean ====
/-
  A row tile of a matrix product.  Cut the rows of an M × K array X into tiles of B rows; the tile that holds row r at its
  local row p is a B × K array T with T(p, k) = X(r, k).  Multiplying the tile by the whole K × N array W gives, at the
  entry (p, c), the sum over k < K of T(p, k) · W(k, c) = X(r, k) · W(k, c): the entry (r, c) of the whole product X · W.
  Nothing but the two sums being the same sum term by term is used, so the statement holds on the extended reals with
  no finiteness assumption.  The tile's product is the kernel's (into a zero accumulator); the whole product is the
  host's.  Each operand of the tile's product may be a copy of the whole array's rows or columns in any float format:
  only the values at the entries the sum visits are compared.
-/
import Idealize.ShloMosaic.PureOps.Ideal.Laws
import Idealize.ShloMosaic.Lib.ValueIdx
import proofs.«107702_j67740224193041_2_alg».proof.Proof.LibPlainDot

noncomputable section

namespace Cert.LibRowTileDot

open Idealize.ShloMosaic Idealize.ShloMosaic.ValueIdx

variable {M B K N : Nat} {φ₁ φ₂ ψ₁ ψ₂ : FTy}
  (Dt : DotDims (⟨2, ![B, K]⟩ : Shape) (⟨2, ![K, N]⟩ : Shape) (⟨2, ![B, N]⟩ : Shape))
  (htrank : Dt.contr.rank = 1) (htsize : Dt.contr.size ⟨0, by omega⟩ = K)
  (htlc : Dt.lhsContracting = [1]) (htrc : Dt.rhsContracting = [0])
  (htL0 : ∀ j k, (Dt.lhsIdx j k 0).val = (j 0).val) (htR1 : ∀ j k, (Dt.rhsIdx j k 1).val = (j 1).val)
  (Dh : DotDims (⟨2, ![M, K]⟩ : Shape) (⟨2, ![K, N]⟩ : Shape) (⟨2, ![M, N]⟩ : Shape))
  (hhrank : Dh.contr.rank = 1) (hhsize : Dh.contr.size ⟨0, by omega⟩ = K)
  (hhlc : Dh.lhsContracting = [1]) (hhrc : Dh.rhsContracting = [0])
  (hhL0 : ∀ j k, (Dh.lhsIdx j k 0).val = (j 0).val) (hhR1 : ∀ j k, (Dh.rhsIdx j k 1).val = (j 1).val)

include htrank htsize htlc htrc htL0 htR1 hhrank hhsize hhlc hhrc hhL0 hhR1 in
/-- Entry (p, c) of the tile's product into a zero accumulator is entry (r, c) of the whole host product, when the
    tile's row p is the whole array's row r and the tile's right operand has the whole right operand's column c. -/
theorem tile_entry (prec prec' : Option ContractPrecision) (sched : HostSchedule)
    (T : FVec Ideal (⟨2, ![B, K]⟩ : Shape) φ₁) (Wt : FVec Ideal (⟨2, ![K, N]⟩ : Shape) φ₂)
    (X : FVec Ideal (⟨2, ![M, K]⟩ : Shape) ψ₁) (W : FVec Ideal (⟨2, ![K, N]⟩ : Shape) ψ₂)
    (p : Fin B) (c : Fin N) (r : Fin M)
    (hT : ∀ k : Fin K, (T (ix2 p k) : EReal) = X (ix2 r k)) (hW : ∀ k : Fin K, (Wt (ix2 k c) : EReal) = W (ix2 k c)) :
    FloatOps.matmul Dt prec T Wt (constant (⟨2, ![B, N]⟩ : Shape) .f32 0x00000000#32) (ix2 p c)
      = FloatOps.dotGeneral Dh prec' sched X W (ix2 r c) := by
  rw [Cert.LibPlainDot.matmul_zero_apply Dt htrank htsize htlc htrc htL0 htR1 prec T Wt p c,
    Cert.LibPlainDot.dotGeneral_apply Dh hhrank hhsize hhlc hhrc hhL0 hhR1 prec' sched X W r c]
  exact Finset.sum_congr rfl fun k _ => by rw [hT k, hW k]

end Cert.LibRowTileDot

end
-- ==== Proof.RegMatmul0.lean ====
/-
  The input layer's matrix product, row tile by row tile.  The grid walks the rows of the input array X (100000 rows of
  9 features) in tiles of 10000 rows; every grid point sees the whole 9 × 128 weight array W.  At a tile the kernel
  multiplies the tile by W into a zero accumulator (the narrowing of both operands to the short float format is the
  identity on the extended reals).  Row p of tile t is row t · 10000 + p of X, so entry (p, q) of the tile's product is
  the sum over k < 9 of X(t · 10000 + p, k) · W(k, q): entry (t · 10000 + p, q) of the whole product X · W, the host's.
  The tiles cover every row, so the array the kernel leaves is the host's product.
-/
import proofs.«107702_j67740224193041_2_alg».proof.Proof.Gen.KernelIdeal.Frame
import proofs.«107702_j67740224193041_2_alg».proof.ReferenceIdeal
import proofs.«107702_j67740224193041_2_alg».proof.Proof.Gen.ReferenceIdeal
import proofs.«107702_j67740224193041_2_alg».proof.Proof.LibRowTileDot
import Idealize.ShloMosaic.Lib.Pipeline.Value
import Idealize.ShloMosaic.Lib.ValueIdx
import Idealize.ShloMosaic.Lib.ValueLayout

set_option maxRecDepth 16384

noncomputable section

namespace Cert.KernelIdeal.Matmul0

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-! ## The two dimension-number records: rows of the left operand, columns of the right, one contracted axis -/

/-- The tile's product reads the left operand's row at the result's row. -/
theorem tile_lhs_row (j : S10000x128.Idx) (k : dot_S10000x9_S9x128_S10000x128_1_0_0_1_n_n.contr.Idx) :
    (dot_S10000x9_S9x128_S10000x128_1_0_0_1_n_n.lhsIdx j k 0).val = (j 0).val := by
  unfold DotDims.lhsIdx
  rw [dif_neg (show ¬(0 : Fin S10000x9.rank) ∈ dot_S10000x9_S9x128_S10000x128_1_0_0_1_n_n.lhsBatch by decide),
    dif_pos (show (0 : Fin S10000x9.rank) ∈ dot_S10000x9_S9x128_S10000x128_1_0_0_1_n_n.lhsNonContracting by decide)]
  rfl

/-- The tile's product reads the right operand's column at the result's column. -/
theorem tile_rhs_col (j : S10000x128.Idx) (k : dot_S10000x9_S9x128_S10000x128_1_0_0_1_n_n.contr.Idx) :
    (dot_S10000x9_S9x128_S10000x128_1_0_0_1_n_n.rhsIdx j k 1).val = (j 1).val := by
  unfold DotDims.rhsIdx
  rw [dif_neg (show ¬(1 : Fin S9x128.rank) ∈ dot_S10000x9_S9x128_S10000x128_1_0_0_1_n_n.rhsBatch by decide),
    dif_pos (show (1 : Fin S9x128.rank) ∈ dot_S10000x9_S9x128_S10000x128_1_0_0_1_n_n.rhsNonContracting by decide)]
  rfl

/-- The whole product reads the left operand's row at the result's row. -/
theorem host_lhs_row (j : Cert.ReferenceIdeal.S100000x128.Idx)
    (k : Cert.ReferenceIdeal.dot_S100000x9_S9x128_S100000x128_1_0_0_1_n_n.contr.Idx) :
    (Cert.ReferenceIdeal.dot_S100000x9_S9x128_S100000x128_1_0_0_1_n_n.lhsIdx j k 0).val = (j 0).val := by
  unfold DotDims.lhsIdx
  rw [dif_neg (show ¬(0 : Fin Cert.ReferenceIdeal.S100000x9.rank) ∈ Cert.ReferenceIdeal.dot_S100000x9_S9x128_S100000x128_1_0_0_1_n_n.lhsBatch by decide),
    dif_pos (show (0 : Fin Cert.ReferenceIdeal.S100000x9.rank) ∈ Cert.ReferenceIdeal.dot_S100000x9_S9x128_S100000x128_1_0_0_1_n_n.lhsNonContracting by decide)]
  rfl

/-- The whole product reads the right operand's column at the result's column. -/
theorem host_rhs_col (j : Cert.ReferenceIdeal.S100000x128.Idx)
    (k : Cert.ReferenceIdeal.dot_S100000x9_S9x128_S100000x128_1_0_0_1_n_n.contr.Idx) :
    (Cert.ReferenceIdeal.dot_S100000x9_S9x128_S100000x128_1_0_0_1_n_n.rhsIdx j k 1).val = (j 1).val := by
  unfold DotDims.rhsIdx
  rw [dif_neg (show ¬(1 : Fin Cert.ReferenceIdeal.S9x128.rank) ∈ Cert.ReferenceIdeal.dot_S100000x9_S9x128_S100000x128_1_0_0_1_n_n.rhsBatch by decide),
    dif_pos (show (1 : Fin Cert.ReferenceIdeal.S9x128.rank) ∈ Cert.ReferenceIdeal.dot_S100000x9_S9x128_S100000x128_1_0_0_1_n_n.rhsNonContracting by decide)]
  rfl

/-- The tile's payload at (p, q): the product of the two operands, each narrowed (the identity here), into zero. -/
theorem pay_apply (x0 : Vec Ideal S10000x9 .f32) (x1 : Vec Ideal S9x128 .f32) (p : Fin 10000) (q : Fin 128) :
    k0_pay1 x0 x1 (ix2 p q)
      = FloatOps.matmul dot_S10000x9_S9x128_S10000x128_1_0_0_1_n_n none (truncf (F := Ideal) .bf16 x0 bitsLt_bf16_f32)
          (truncf (F := Ideal) .bf16 x1 bitsLt_bf16_f32) (constant S10000x128 .f32 0x00000000#32) (ix2 p q) := by
  unfold k0_pay1
  rfl

/-- The printed index maps over the grid: the left operand's and the result's row block is the grid point, their
    column block 0; the right operand's block is the whole array at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is tile `t` of the whole product. -/
theorem flushed_eq (c : Dev nD) (t : Fin cfg0.N) (A : FVec Ideal S100000x9 .f32) (B : FVec Ideal S9x128 .f32)
    (hA : V c (Pipeline.arrRef spec0 0) = A) (hB : V c (Pipeline.arrRef spec0 1) = B) :
    (dat0 V c).flushed 2 t = ((cfg0.win 2).blk t).view.read (Elt Ideal)
      (Host.dotGeneral (F := Ideal) Cert.ReferenceIdeal.dot_S100000x9_S9x128_S100000x128_1_0_0_1_n_n none A B) := by
  show (cfg0.win 2).cut (grid0.coords t) ((dat0 V c).after 2 t) = _
  rw [after0_2]
  unfold out0_2
  rw [View.canon_unit_zero zero_offsets]
  simp only [View.ld_unit_zero (S := S10000x9) zero_offsets, View.ld_unit_zero (S := S9x128) zero_offsets]
  obtain ⟨e00, e01, e10, e11, e20, e21⟩ := idx_facts t
  have ht : t.val < 10 := lt_of_lt_of_eq t.isLt N_0
  funext j
  obtain ⟨p, q, rfl⟩ : ∃ (p : Fin 10000) (q : Fin 128), j = ix2 p q := ⟨j 0, j 1, eq_ix2 j⟩
  have hr : t.val * 10000 + p.val < 100000 := by have := p.isLt; omega
  have emb2 : ((cfg0.win 2).blk t).view.emb (ix2 p q) = ix2 (⟨t.val * 10000 + p.val, hr⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  have emb0 : ∀ k : Fin 9, ((cfg0.win 0).blk t).view.emb (ix2 p k) = ix2 (⟨t.val * 10000 + p.val, hr⟩ : Fin 100000) k := fun k => by
    funext a; apply Fin.ext
    match a with
    | ⟨0, _⟩ => show win0_0.index t (0 : Fin 2) * 10000 + 1 * p.val = t.val * 10000 + p.val; omega
    | ⟨1, _⟩ => show win0_0.index t (1 : Fin 2) * 9 + 1 * k.val = k.val; omega
  have emb1 : ∀ k : Fin 9, ((cfg0.win 1).blk t).view.emb (ix2 k q) = ix2 k q := fun k => by
    funext a; apply Fin.ext
    match a with
    | ⟨0, _⟩ => show win0_1.index t (0 : Fin 2) * 9 + 1 * k.val = k.val; omega
    | ⟨1, _⟩ => show win0_1.index t (1 : Fin 2) * 128 + 1 * q.val = q.val; omega
  have h0 : ∀ k : Fin 9, iblk0 V c 0 t (ix2 p k) = A (ix2 (⟨t.val * 10000 + p.val, hr⟩ : Fin 100000) k) := fun k => by
    show V c (Pipeline.arrRef spec0 0) (((cfg0.win 0).blk t).view.emb (ix2 p k)) = _
    rw [emb0 k, hA]
  have h1 : ∀ k : Fin 9, iblk0 V c 1 t (ix2 k q) = B (ix2 k q) := fun k => by
    show V c (Pipeline.arrRef spec0 1) (((cfg0.win 1).blk t).view.emb (ix2 k q)) = _
    rw [emb1 k, hB]
  refine (pay_apply (iblk0 V c 0 t) (iblk0 V c 1 t) p q).trans ?_
  rw [View.read_apply, emb2]
  exact Cert.LibRowTileDot.tile_entry dot_S10000x9_S9x128_S10000x128_1_0_0_1_n_n rfl rfl rfl rfl tile_lhs_row tile_rhs_col
    Cert.ReferenceIdeal.dot_S100000x9_S9x128_S100000x128_1_0_0_1_n_n rfl rfl rfl rfl host_lhs_row host_rhs_col
    none none _ (truncf (F := Ideal) .bf16 (iblk0 V c 0 t) bitsLt_bf16_f32) (truncf (F := Ideal) .bf16 (iblk0 V c 1 t) bitsLt_bf16_f32)
    A B p q ⟨t.val * 10000 + p.val, hr⟩ (fun k => h0 k) (fun k => h1 k)

/-- An index of the array is in point `t`'s tile iff each coordinate is in the tile's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole (Pipeline.arrRef spec0 2)).slice (win0_2.rect t)).set ↔ _
  rw [View.set_slice_whole, Rect.mem_set_unit]
  exact Iff.rfl

/-- The tiles cover the array: row r is in tile r / 10000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  refine ⟨⟨(i 0).val / 10000, by rw [show cfg0.N = grid0.N from rfl, hN]; omega⟩, flush0_2 _, ?_⟩
  rw [mem_blk]
  obtain ⟨-, -, -, -, e20, e21⟩ := idx_facts ⟨(i 0).val / 10000, by rw [show cfg0.N = grid0.N from rfl, hN]; omega⟩
  intro a
  match a with
  | ⟨0, _⟩ => show win0_2.index _ (0 : Fin 2) * 10000 ≤ (i 0).val ∧ (i 0).val < win0_2.index _ (0 : Fin 2) * 10000 + 10000; rw [e20]; show (i 0).val / 10000 * 10000 ≤ (i 0).val ∧ (i 0).val < (i 0).val / 10000 * 10000 + 10000; omega
  | ⟨1, _⟩ => show win0_2.index _ (1 : Fin 2) * 128 ≤ (i 1).val ∧ (i 1).val < win0_2.index _ (1 : Fin 2) * 128 + 128; rw [e21]; omega

/-- The array the kernel leaves: the host's product of the two entry arrays. -/
theorem arr (c : Dev nD) (A : FVec Ideal S100000x9 .f32) (B : FVec Ideal S9x128 .f32)
    (hA : V c (Pipeline.arrRef spec0 0) = A) (hB : V c (Pipeline.arrRef spec0 1) = B) :
    (dat0 V c).arrAt 2 cfg0.N
      = Host.dotGeneral (F := Ideal) Cert.ReferenceIdeal.dot_S100000x9_S9x128_S100000x128_1_0_0_1_n_n none A B :=
  (dat0 V c).arrAt_eq_of_cover 2 _ (fun t _ => flushed_eq V c t A B hA hB) (cover)

end Cert.KernelIdeal.Matmul0

end
-- ==== Proof.RegMatmul3.lean ====
/-
  The dense layer's matrix product, row tile by row tile.  The grid walks the rows of the feature array X (100000 rows
  of 128 features) in tiles of 10000 rows; every grid point sees the whole 128 × 128 weight array W.  At a tile the
  kernel multiplies the tile by W into a zero accumulator (the narrowing of both operands to the short float format is
  the identity on the extended reals).  Row p of tile t is row t · 10000 + p of X, so entry (p, q) of the tile's product
  is the sum over k < 128 of X(t · 10000 + p, k) · W(k, q): entry (t · 10000 + p, q) of the whole product X · W, the
  host's.  The tiles cover every row, so the array the kernel leaves is the host's product.
-/
import proofs.«107702_j67740224193041_2_alg».proof.Proof.Gen.KernelIdeal.Frame
import proofs.«107702_j67740224193041_2_alg».proof.ReferenceIdeal
import proofs.«107702_j67740224193041_2_alg».proof.Proof.Gen.ReferenceIdeal
import proofs.«107702_j67740224193041_2_alg».proof.Proof.LibRowTileDot
import Idealize.ShloMosaic.Lib.Pipeline.Value
import Idealize.ShloMosaic.Lib.ValueIdx
import Idealize.ShloMosaic.Lib.ValueLayout

set_option maxRecDepth 16384

noncomputable section

namespace Cert.KernelIdeal.Matmul3

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-! ## The two dimension-number records: rows of the left operand, columns of the right, one contracted axis -/

/-- The tile's product reads the left operand's row at the result's row. -/
theorem tile_lhs_row (j : S10000x128.Idx) (k : dot_S10000x128_S128x128_S10000x128_1_0_0_1_n_n.contr.Idx) :
    (dot_S10000x128_S128x128_S10000x128_1_0_0_1_n_n.lhsIdx j k 0).val = (j 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

/-- The tile's product reads the right operand's column at the result's column. -/
theorem tile_rhs_col (j : S10000x128.Idx) (k : dot_S10000x128_S128x128_S10000x128_1_0_0_1_n_n.contr.Idx) :
    (dot_S10000x128_S128x128_S10000x128_1_0_0_1_n_n.rhsIdx j k 1).val = (j 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The whole product reads the left operand's row at the result's row. -/
theorem host_lhs_row (j : Cert.ReferenceIdeal.S100000x128.Idx)
    (k : Cert.ReferenceIdeal.dot_S100000x128_S128x128_S100000x128_1_0_0_1_n_n.contr.Idx) :
    (Cert.ReferenceIdeal.dot_S100000x128_S128x128_S100000x128_1_0_0_1_n_n.lhsIdx j k 0).val = (j 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide),
    dif_pos (show (0 : Fin Cert.ReferenceIdeal.S100000x128.rank) ∈ Cert.ReferenceIdeal.dot_S100000x128_S128x128_S100000x128_1_0_0_1_n_n.lhsNonContracting by decide)]
  rfl

/-- The whole product reads the right operand's column at the result's column. -/
theorem host_rhs_col (j : Cert.ReferenceIdeal.S100000x128.Idx)
    (k : Cert.ReferenceIdeal.dot_S100000x128_S128x128_S100000x128_1_0_0_1_n_n.contr.Idx) :
    (Cert.ReferenceIdeal.dot_S100000x128_S128x128_S100000x128_1_0_0_1_n_n.rhsIdx j k 1).val = (j 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide),
    dif_pos (show (1 : Fin Cert.ReferenceIdeal.S128x128.rank) ∈ Cert.ReferenceIdeal.dot_S100000x128_S128x128_S100000x128_1_0_0_1_n_n.rhsNonContracting by decide)]
  rfl

/-- The tile's payload at (p, q): the product of the two operands, each narrowed (the identity here), into zero. -/
theorem pay_apply (x0 : Vec Ideal S10000x128 .f32) (x1 : Vec Ideal S128x128 .f32) (p : Fin 10000) (q : Fin 128) :
    k3_pay1 x0 x1 (ix2 p q)
      = FloatOps.matmul dot_S10000x128_S128x128_S10000x128_1_0_0_1_n_n none (truncf (F := Ideal) .bf16 x0 bitsLt_bf16_f32)
          (truncf (F := Ideal) .bf16 x1 bitsLt_bf16_f32) (constant S10000x128 .f32 0x00000000#32) (ix2 p q) := by
  unfold k3_pay1
  show FloatOps.matmul dot_S10000x128_S128x128_S10000x128_1_0_0_1_n_n none
      (truncf (F := Ideal) .bf16 (shapeCast S10000x128 x0 shapeCasts_S10000x128_S10000x128) bitsLt_bf16_f32)
      (truncf (F := Ideal) .bf16 x1 bitsLt_bf16_f32) (constant S10000x128 .f32 0x00000000#32) (ix2 p q) = _
  rw [shapeCast_self]

/-- The printed index maps over the grid: the left operand's and the result's row block is the grid point, their
    column block 0; the right operand's block is the whole array at every point. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is tile `t` of the whole product. -/
theorem flushed_eq (c : Dev nD) (t : Fin cfg3.N) (A : FVec Ideal S100000x128 .f32) (B : FVec Ideal S128x128 .f32)
    (hA : V c (Pipeline.arrRef spec3 0) = A) (hB : V c (Pipeline.arrRef spec3 1) = B) :
    (dat3 V c).flushed 2 t = ((cfg3.win 2).blk t).view.read (Elt Ideal)
      (Host.dotGeneral (F := Ideal) Cert.ReferenceIdeal.dot_S100000x128_S128x128_S100000x128_1_0_0_1_n_n none A B) := by
  show (cfg3.win 2).cut (grid3.coords t) ((dat3 V c).after 2 t) = _
  rw [after3_2]
  unfold out3_2
  rw [View.canon_unit_zero zero_offsets]
  simp only [View.ld_unit_zero (S := S10000x128) zero_offsets, View.ld_unit_zero (S := S128x128) zero_offsets]
  obtain ⟨e00, e01, e10, e11, e20, e21⟩ := idx_facts t
  have ht : t.val < 10 := lt_of_lt_of_eq t.isLt N_3
  funext j
  obtain ⟨p, q, rfl⟩ : ∃ (p : Fin 10000) (q : Fin 128), j = ix2 p q := ⟨j 0, j 1, eq_ix2 j⟩
  have hr : t.val * 10000 + p.val < 100000 := by have := p.isLt; omega
  have emb2 : ((cfg3.win 2).blk t).view.emb (ix2 p q) = ix2 (⟨t.val * 10000 + p.val, hr⟩ : Fin 100000) q := by
    funext a; apply Fin.ext
    match a with
    | ⟨0, _⟩ => show win3_2.index t (0 : Fin 2) * 10000 + 1 * p.val = t.val * 10000 + p.val; omega
    | ⟨1, _⟩ => show win3_2.index t (1 : Fin 2) * 128 + 1 * q.val = q.val; omega
  have emb0 : ∀ k : Fin 128, ((cfg3.win 0).blk t).view.emb (ix2 p k) = ix2 (⟨t.val * 10000 + p.val, hr⟩ : Fin 100000) k := fun k => by
    funext a; apply Fin.ext
    match a with
    | ⟨0, _⟩ => show win3_0.index t (0 : Fin 2) * 10000 + 1 * p.val = t.val * 10000 + p.val; omega
    | ⟨1, _⟩ => show win3_0.index t (1 : Fin 2) * 128 + 1 * k.val = k.val; omega
  have emb1 : ∀ k : Fin 128, ((cfg3.win 1).blk t).view.emb (ix2 k q) = ix2 k q := fun k => by
    funext a; apply Fin.ext
    match a with
    | ⟨0, _⟩ => show win3_1.index t (0 : Fin 2) * 128 + 1 * k.val = k.val; omega
    | ⟨1, _⟩ => show win3_1.index t (1 : Fin 2) * 128 + 1 * q.val = q.val; omega
  have h0 : ∀ k : Fin 128, iblk3 V c 0 t (ix2 p k) = A (ix2 (⟨t.val * 10000 + p.val, hr⟩ : Fin 100000) k) := fun k => by
    show V c (Pipeline.arrRef spec3 0) (((cfg3.win 0).blk t).view.emb (ix2 p k)) = _
    rw [emb0 k, hA]
  have h1 : ∀ k : Fin 128, iblk3 V c 1 t (ix2 k q) = B (ix2 k q) := fun k => by
    show V c (Pipeline.arrRef spec3 1) (((cfg3.win 1).blk t).view.emb (ix2 k q)) = _
    rw [emb1 k, hB]
  refine (pay_apply (iblk3 V c 0 t) (iblk3 V c 1 t) p q).trans ?_
  rw [View.read_apply, emb2]
  exact Cert.LibRowTileDot.tile_entry dot_S10000x128_S128x128_S10000x128_1_0_0_1_n_n rfl rfl rfl rfl tile_lhs_row tile_rhs_col
    Cert.ReferenceIdeal.dot_S100000x128_S128x128_S100000x128_1_0_0_1_n_n rfl rfl rfl rfl host_lhs_row host_rhs_col
    none none _ (truncf (F := Ideal) .bf16 (iblk3 V c 0 t) bitsLt_bf16_f32) (truncf (F := Ideal) .bf16 (iblk3 V c 1 t) bitsLt_bf16_f32)
    A B p q ⟨t.val * 10000 + p.val, hr⟩ (fun k => h0 k) (fun k => h1 k)

/-- An index of the array is in point `t`'s tile iff each coordinate is in the tile's range on its axis. -/
theorem mem_blk (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole (Pipeline.arrRef spec3 2)).slice (win3_2.rect t)).set ↔ _
  rw [View.set_slice_whole, Rect.mem_set_unit]
  exact Iff.rfl

/-- The tiles cover the array: row r is in tile r / 10000. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : grid3.N = 10 := N_3
  refine ⟨⟨(i 0).val / 10000, by rw [show cfg3.N = grid3.N from rfl, hN]; omega⟩, flush3_2 _, ?_⟩
  rw [mem_blk]
  obtain ⟨-, -, -, -, e20, e21⟩ := idx_facts ⟨(i 0).val / 10000, by rw [show cfg3.N = grid3.N from rfl, hN]; omega⟩
  intro a
  match a with
  | ⟨0, _⟩ => show win3_2.index _ (0 : Fin 2) * 10000 ≤ (i 0).val ∧ (i 0).val < win3_2.index _ (0 : Fin 2) * 10000 + 10000; rw [e20]; show (i 0).val / 10000 * 10000 ≤ (i 0).val ∧ (i 0).val < (i 0).val / 10000 * 10000 + 10000; omega
  | ⟨1, _⟩ => show win3_2.index _ (1 : Fin 2) * 128 ≤ (i 1).val ∧ (i 1).val < win3_2.index _ (1 : Fin 2) * 128 + 128; rw [e21]; omega

/-- The array the kernel leaves: the host's product of the two entry arrays. -/
theorem arr (c : Dev nD) (A : FVec Ideal S100000x128 .f32) (B : FVec Ideal S128x128 .f32)
    (hA : V c (Pipeline.arrRef spec3 0) = A) (hB : V c (Pipeline.arrRef spec3 1) = B) :
    (dat3 V c).arrAt 2 cfg3.N
      = Host.dotGeneral (F := Ideal) Cert.ReferenceIdeal.dot_S100000x128_S128x128_S100000x128_1_0_0_1_n_n none A B :=
  (dat3 V c).arrAt_eq_of_cover 2 _ (fun t _ => flushed_eq V c t A B hA hB) (cover)

end Cert.KernelIdeal.Matmul3

end
-- ==== Proof.RegMatmul6.lean ====
/-
  The second dense layer's matrix product, row tile by row tile.  The grid walks the rows of the feature array X (100000 rows
  of 128 features) in tiles of 10000 rows; every grid point sees the whole 128 × 128 weight array W.  At a tile the
  kernel multiplies the tile by W into a zero accumulator (the narrowing of both operands to the short float format is
  the identity on the extended reals).  Row p of tile t is row t · 10000 + p of X, so entry (p, q) of the tile's product
  is the sum over k < 128 of X(t · 10000 + p, k) · W(k, q): entry (t · 10000 + p, q) of the whole product X · W, the
  host's.  The tiles cover every row, so the array the kernel leaves is the host's product.
-/
import proofs.«107702_j67740224193041_2_alg».proof.Proof.Gen.KernelIdeal.Frame
import proofs.«107702_j67740224193041_2_alg».proof.ReferenceIdeal
import proofs.«107702_j67740224193041_2_alg».proof.Proof.Gen.ReferenceIdeal
import proofs.«107702_j67740224193041_2_alg».proof.Proof.LibRowTileDot
import Idealize.ShloMosaic.Lib.Pipeline.Value
import Idealize.ShloMosaic.Lib.ValueIdx
import Idealize.ShloMosaic.Lib.ValueLayout

set_option maxRecDepth 16384

noncomputable section

namespace Cert.KernelIdeal.Matmul6

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-! ## The two dimension-number records: rows of the left operand, columns of the right, one contracted axis -/

/-- The tile's product reads the left operand's row at the result's row. -/
theorem tile_lhs_row (j : S10000x128.Idx) (k : dot_S10000x128_S128x128_S10000x128_1_0_0_1_n_n.contr.Idx) :
    (dot_S10000x128_S128x128_S10000x128_1_0_0_1_n_n.lhsIdx j k 0).val = (j 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

/-- The tile's product reads the right operand's column at the result's column. -/
theorem tile_rhs_col (j : S10000x128.Idx) (k : dot_S10000x128_S128x128_S10000x128_1_0_0_1_n_n.contr.Idx) :
    (dot_S10000x128_S128x128_S10000x128_1_0_0_1_n_n.rhsIdx j k 1).val = (j 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The whole product reads the left operand's row at the result's row. -/
theorem host_lhs_row (j : Cert.ReferenceIdeal.S100000x128.Idx)
    (k : Cert.ReferenceIdeal.dot_S100000x128_S128x128_S100000x128_1_0_0_1_n_n.contr.Idx) :
    (Cert.ReferenceIdeal.dot_S100000x128_S128x128_S100000x128_1_0_0_1_n_n.lhsIdx j k 0).val = (j 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide),
    dif_pos (show (0 : Fin Cert.ReferenceIdeal.S100000x128.rank) ∈ Cert.ReferenceIdeal.dot_S100000x128_S128x128_S100000x128_1_0_0_1_n_n.lhsNonContracting by decide)]
  rfl

/-- The whole product reads the right operand's column at the result's column. -/
theorem host_rhs_col (j : Cert.ReferenceIdeal.S100000x128.Idx)
    (k : Cert.ReferenceIdeal.dot_S100000x128_S128x128_S100000x128_1_0_0_1_n_n.contr.Idx) :
    (Cert.ReferenceIdeal.dot_S100000x128_S128x128_S100000x128_1_0_0_1_n_n.rhsIdx j k 1).val = (j 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide),
    dif_pos (show (1 : Fin Cert.ReferenceIdeal.S128x128.rank) ∈ Cert.ReferenceIdeal.dot_S100000x128_S128x128_S100000x128_1_0_0_1_n_n.rhsNonContracting by decide)]
  rfl

/-- The tile's payload at (p, q): the product of the two operands, each narrowed (the identity here), into zero. -/
theorem pay_apply (x0 : Vec Ideal S10000x128 .f32) (x1 : Vec Ideal S128x128 .f32) (p : Fin 10000) (q : Fin 128) :
    k6_pay1 x0 x1 (ix2 p q)
      = FloatOps.matmul dot_S10000x128_S128x128_S10000x128_1_0_0_1_n_n none (truncf (F := Ideal) .bf16 x0 bitsLt_bf16_f32)
          (truncf (F := Ideal) .bf16 x1 bitsLt_bf16_f32) (constant S10000x128 .f32 0x00000000#32) (ix2 p q) := by
  unfold k6_pay1
  show FloatOps.matmul dot_S10000x128_S128x128_S10000x128_1_0_0_1_n_n none
      (truncf (F := Ideal) .bf16 (shapeCast S10000x128 x0 shapeCasts_S10000x128_S10000x128) bitsLt_bf16_f32)
      (truncf (F := Ideal) .bf16 x1 bitsLt_bf16_f32) (constant S10000x128 .f32 0x00000000#32) (ix2 p q) = _
  rw [shapeCast_self]

/-- The printed index maps over the grid: the left operand's and the result's row block is the grid point, their
    column block 0; the right operand's block is the whole array at every point. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point `t` writes back is tile `t` of the whole product. -/
theorem flushed_eq (c : Dev nD) (t : Fin cfg6.N) (A : FVec Ideal S100000x128 .f32) (B : FVec Ideal S128x128 .f32)
    (hA : V c (Pipeline.arrRef spec6 0) = A) (hB : V c (Pipeline.arrRef spec6 1) = B) :
    (dat6 V c).flushed 2 t = ((cfg6.win 2).blk t).view.read (Elt Ideal)
      (Host.dotGeneral (F := Ideal) Cert.ReferenceIdeal.dot_S100000x128_S128x128_S100000x128_1_0_0_1_n_n none A B) := by
  show (cfg6.win 2).cut (grid6.coords t) ((dat6 V c).after 2 t) = _
  rw [after6_2]
  unfold out6_2
  rw [View.canon_unit_zero zero_offsets]
  simp only [View.ld_unit_zero (S := S10000x128) zero_offsets, View.ld_unit_zero (S := S128x128) zero_offsets]
  obtain ⟨e00, e01, e10, e11, e20, e21⟩ := idx_facts t
  have ht : t.val < 10 := lt_of_lt_of_eq t.isLt N_6
  funext j
  obtain ⟨p, q, rfl⟩ : ∃ (p : Fin 10000) (q : Fin 128), j = ix2 p q := ⟨j 0, j 1, eq_ix2 j⟩
  have hr : t.val * 10000 + p.val < 100000 := by have := p.isLt; omega
  have emb2 : ((cfg6.win 2).blk t).view.emb (ix2 p q) = ix2 (⟨t.val * 10000 + p.val, hr⟩ : Fin 100000) q := by
    funext a; apply Fin.ext
    match a with
    | ⟨0, _⟩ => show win6_2.index t (0 : Fin 2) * 10000 + 1 * p.val = t.val * 10000 + p.val; omega
    | ⟨1, _⟩ => show win6_2.index t (1 : Fin 2) * 128 + 1 * q.val = q.val; omega
  have emb0 : ∀ k : Fin 128, ((cfg6.win 0).blk t).view.emb (ix2 p k) = ix2 (⟨t.val * 10000 + p.val, hr⟩ : Fin 100000) k := fun k => by
    funext a; apply Fin.ext
    match a with
    | ⟨0, _⟩ => show win6_0.index t (0 : Fin 2) * 10000 + 1 * p.val = t.val * 10000 + p.val; omega
    | ⟨1, _⟩ => show win6_0.index t (1 : Fin 2) * 128 + 1 * k.val = k.val; omega
  have emb1 : ∀ k : Fin 128, ((cfg6.win 1).blk t).view.emb (ix2 k q) = ix2 k q := fun k => by
    funext a; apply Fin.ext
    match a with
    | ⟨0, _⟩ => show win6_1.index t (0 : Fin 2) * 128 + 1 * k.val = k.val; omega
    | ⟨1, _⟩ => show win6_1.index t (1 : Fin 2) * 128 + 1 * q.val = q.val; omega
  have h0 : ∀ k : Fin 128, iblk6 V c 0 t (ix2 p k) = A (ix2 (⟨t.val * 10000 + p.val, hr⟩ : Fin 100000) k) := fun k => by
    show V c (Pipeline.arrRef spec6 0) (((cfg6.win 0).blk t).view.emb (ix2 p k)) = _
    rw [emb0 k, hA]
  have h1 : ∀ k : Fin 128, iblk6 V c 1 t (ix2 k q) = B (ix2 k q) := fun k => by
    show V c (Pipeline.arrRef spec6 1) (((cfg6.win 1).blk t).view.emb (ix2 k q)) = _
    rw [emb1 k, hB]
  refine (pay_apply (iblk6 V c 0 t) (iblk6 V c 1 t) p q).trans ?_
  rw [View.read_apply, emb2]
  exact Cert.LibRowTileDot.tile_entry dot_S10000x128_S128x128_S10000x128_1_0_0_1_n_n rfl rfl rfl rfl tile_lhs_row tile_rhs_col
    Cert.ReferenceIdeal.dot_S100000x128_S128x128_S100000x128_1_0_0_1_n_n rfl rfl rfl rfl host_lhs_row host_rhs_col
    none none _ (truncf (F := Ideal) .bf16 (iblk6 V c 0 t) bitsLt_bf16_f32) (truncf (F := Ideal) .bf16 (iblk6 V c 1 t) bitsLt_bf16_f32)
    A B p q ⟨t.val * 10000 + p.val, hr⟩ (fun k => h0 k) (fun k => h1 k)

/-- An index of the array is in point `t`'s tile iff each coordinate is in the tile's range on its axis. -/
theorem mem_blk (t : Fin cfg6.N) (i : S100000x128.Idx) :
    i ∈ ((cfg6.win 2).blk t).view.set ↔ ∀ a : Fin 2, win6_2.index t a * S10000x128.size a ≤ (i a).val ∧ (i a).val < win6_2.index t a * S10000x128.size a + S10000x128.size a := by
  show i ∈ ((View.whole (Pipeline.arrRef spec6 2)).slice (win6_2.rect t)).set ↔ _
  rw [View.set_slice_whole, Rect.mem_set_unit]
  exact Iff.rfl

/-- The tiles cover the array: row r is in tile r / 10000. -/
theorem cover (i : S100000x128.Idx) : ∃ t : Fin cfg6.N, (cfg6.win 2).flush t = true ∧ i ∈ ((cfg6.win 2).blk t).view.set := by
  have hi0 : (i 0).val < 100000 := (i 0).isLt
  have hi1 : (i 1).val < 128 := (i 1).isLt
  have hN : grid6.N = 10 := N_6
  refine ⟨⟨(i 0).val / 10000, by rw [show cfg6.N = grid6.N from rfl, hN]; omega⟩, flush6_2 _, ?_⟩
  rw [mem_blk]
  obtain ⟨-, -, -, -, e20, e21⟩ := idx_facts ⟨(i 0).val / 10000, by rw [show cfg6.N = grid6.N from rfl, hN]; omega⟩
  intro a
  match a with
  | ⟨0, _⟩ => show win6_2.index _ (0 : Fin 2) * 10000 ≤ (i 0).val ∧ (i 0).val < win6_2.index _ (0 : Fin 2) * 10000 + 10000; rw [e20]; show (i 0).val / 10000 * 10000 ≤ (i 0).val ∧ (i 0).val < (i 0).val / 10000 * 10000 + 10000; omega
  | ⟨1, _⟩ => show win6_2.index _ (1 : Fin 2) * 128 ≤ (i 1).val ∧ (i 1).val < win6_2.index _ (1 : Fin 2) * 128 + 128; rw [e21]; omega

/-- The array the kernel leaves: the host's product of the two entry arrays. -/
theorem arr (c : Dev nD) (A : FVec Ideal S100000x128 .f32) (B : FVec Ideal S128x128 .f32)
    (hA : V c (Pipeline.arrRef spec6 0) = A) (hB : V c (Pipeline.arrRef spec6 1) = B) :
    (dat6 V c).arrAt 2 cfg6.N
      = Host.dotGeneral (F := Ideal) Cert.ReferenceIdeal.dot_S100000x128_S128x128_S100000x128_1_0_0_1_n_n none A B :=
  (dat6 V c).arrAt_eq_of_cover 2 _ (fun t _ => flushed_eq V c t A B hA hB) (cover)

end Cert.KernelIdeal.Matmul6

end
-- ==== Proof.RegScale1.lean ====
/-
  The scaling kernel between a gather and a scatter-add.  Its grid walks the rows of the message array in tiles of
  10000 rows; at a tile it multiplies every row of the message tile by that row's coefficient, the one entry of the
  coefficient column's row.  A row of a tile is a row of the whole array (tile index times 10000 plus the row inside the
  tile), so the array the kernel leaves is, entry by entry, message(r, q) times coefficient(r, 0): the host's product
  of the message array with the coefficient column broadcast along the feature axis.  The tiles cover every row.
-/
import proofs.«107702_j67740224193041_2_alg».proof.Proof.Gen.KernelIdeal.Frame
import proofs.«107702_j67740224193041_2_alg».proof.ReferenceIdeal
import proofs.«107702_j67740224193041_2_alg».proof.Proof.Gen.ReferenceIdeal
import proofs.«107702_j67740224193041_2_alg».proof.Proof.LibUnitAxes
import Idealize.ShloMosaic.Lib.Pipeline.Value
import Idealize.ShloMosaic.Lib.ValueIdx
import Idealize.ShloMosaic.Lib.ValueLayout

set_option maxRecDepth 16384

noncomputable section

namespace Cert.KernelIdeal.Scale1

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The tile's product at (p, q): the message tile's entry times the coefficient column's entry of row p. -/
theorem pay_apply (x0 : FVec Ideal S10000x128 .f32) (x1 : FVec Ideal S10000x1 .f32) (p : Fin 10000) (q : Fin 128) :
    k1_pay1 x0 x1 (ix2 p q) = FloatOps.mulf (x0 (ix2 p q)) (x1 (ix2 p (0 : Fin 1))) := by
  unfold k1_pay1
  show FloatOps.mulf (shapeCast S10000x128 x0 shapeCasts_S10000x128_S10000x128 (ix2 p q))
      (broadcastTo S10000x128 (shapeCast S10000x1 x1 shapeCasts_S10000x1_S10000x1) broadcasts_S10000x1_S10000x128 (ix2 p q)) = _
  rw [shapeCast_self, shapeCast_self]
  exact congrArg _ (Cert.LibUnitAxes.broadcastTo_a1_ab_apply x1 broadcasts_S10000x1_S10000x128 p q)

/-- The whole arrays' product at (r, q): the message array's entry times the coefficient column's entry of row r. -/
theorem host_apply (A : FVec Ideal S1700000x128 .f32) (Nrm : FVec Ideal S1700000x1 .f32) (r : Fin 1700000) (q : Fin 128) :
    mulf (F := Ideal) A (broadcastInDim Cert.ReferenceIdeal.S1700000x128 ![0, 1] Cert.ReferenceIdeal.Facts₀.bcast_S1700000x1_S1700000x128_0_1 Nrm) (ix2 r q)
      = FloatOps.mulf (A (ix2 r q)) (Nrm (ix2 r (0 : Fin 1))) :=
  congrArg _ (Cert.LibUnitAxes.broadcastInDim_a1_ab_apply Nrm Cert.ReferenceIdeal.Facts₀.bcast_S1700000x1_S1700000x128_0_1 r q)

/-- The printed index maps over the grid: every window's row block is the grid point, its column block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is tile `t` of the whole arrays' product. -/
theorem flushed_eq (c : Dev nD) (t : Fin cfg1.N) (A : FVec Ideal S1700000x128 .f32) (Nrm : FVec Ideal S1700000x1 .f32)
    (hA : V c (Pipeline.arrRef spec1 0) = A) (hN : V c (Pipeline.arrRef spec1 1) = Nrm) :
    (dat1 V c).flushed 2 t = ((cfg1.win 2).blk t).view.read (Elt Ideal)
      (mulf (F := Ideal) A (broadcastInDim Cert.ReferenceIdeal.S1700000x128 ![0, 1] Cert.ReferenceIdeal.Facts₀.bcast_S1700000x1_S1700000x128_0_1 Nrm)) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S10000x1) zero_offsets]
  obtain ⟨e00, e01, e10, e11, e20, e21⟩ := idx_facts t
  have ht : t.val < 170 := lt_of_lt_of_eq t.isLt N_1
  funext j
  obtain ⟨p, q, rfl⟩ : ∃ (p : Fin 10000) (q : Fin 128), j = ix2 p q := ⟨j 0, j 1, eq_ix2 j⟩
  have hr : t.val * 10000 + p.val < 1700000 := by have := p.isLt; omega
  have emb2 : ((cfg1.win 2).blk t).view.emb (ix2 p q) = ix2 (⟨t.val * 10000 + p.val, hr⟩ : Fin 1700000) q := by
    funext a; apply Fin.ext
    match a with
    | ⟨0, _⟩ => show win1_2.index t (0 : Fin 2) * 10000 + 1 * p.val = t.val * 10000 + p.val; omega
    | ⟨1, _⟩ => show win1_2.index t (1 : Fin 2) * 128 + 1 * q.val = q.val; omega
  have emb0 : ((cfg1.win 0).blk t).view.emb (ix2 p q) = ix2 (⟨t.val * 10000 + p.val, hr⟩ : Fin 1700000) q := by
    funext a; apply Fin.ext
    match a with
    | ⟨0, _⟩ => show win1_0.index t (0 : Fin 2) * 10000 + 1 * p.val = t.val * 10000 + p.val; omega
    | ⟨1, _⟩ => show win1_0.index t (1 : Fin 2) * 128 + 1 * q.val = q.val; omega
  have emb1 : ((cfg1.win 1).blk t).view.emb (ix2 p (0 : Fin 1)) = ix2 (⟨t.val * 10000 + p.val, hr⟩ : Fin 1700000) (0 : Fin 1) := by
    funext a; apply Fin.ext
    match a with
    | ⟨0, _⟩ => show win1_1.index t (0 : Fin 2) * 10000 + 1 * p.val = t.val * 10000 + p.val; omega
    | ⟨1, _⟩ => show win1_1.index t (1 : Fin 2) * 1 + 1 * 0 = 0; omega
  refine (pay_apply (iblk1 V c 0 t) (iblk1 V c 1 t) p q).trans ?_
  have h0 : iblk1 V c 0 t (ix2 p q) = A (ix2 (⟨t.val * 10000 + p.val, hr⟩ : Fin 1700000) q) := by
    show V c (Pipeline.arrRef spec1 0) (((cfg1.win 0).blk t).view.emb (ix2 p q)) = _
    rw [emb0, hA]
  have h1 : iblk1 V c 1 t (ix2 p (0 : Fin 1)) = Nrm (ix2 (⟨t.val * 10000 + p.val, hr⟩ : Fin 1700000) (0 : Fin 1)) := by
    show V c (Pipeline.arrRef spec1 1) (((cfg1.win 1).blk t).view.emb (ix2 p (0 : Fin 1))) = _
    rw [emb1, hN]
  show _ = (mulf (F := Ideal) A (broadcastInDim Cert.ReferenceIdeal.S1700000x128 ![0, 1] Cert.ReferenceIdeal.Facts₀.bcast_S1700000x1_S1700000x128_0_1 Nrm))
      (((cfg1.win 2).blk t).view.emb (ix2 p q))
  rw [emb2, host_apply, h0, h1]

/-- An index of the array is in point `t`'s tile iff each coordinate is in the tile's range on its axis. -/
theorem mem_blk (t : Fin cfg1.N) (i : S1700000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole (Pipeline.arrRef spec1 2)).slice (win1_2.rect t)).set ↔ _
  rw [View.set_slice_whole, Rect.mem_set_unit]
  exact Iff.rfl

/-- The tiles cover the array: row r is in tile r / 10000. -/
theorem cover (i : S1700000x128.Idx) : ∃ t : Fin cfg1.N, (cfg1.win 2).flush t = true ∧ i ∈ ((cfg1.win 2).blk t).view.set := by
  have hi0 : (i 0).val < 1700000 := (i 0).isLt
  have hi1 : (i 1).val < 128 := (i 1).isLt
  have hN : grid1.N = 170 := N_1
  refine ⟨⟨(i 0).val / 10000, by rw [show cfg1.N = grid1.N from rfl, hN]; omega⟩, flush1_2 _, ?_⟩
  rw [mem_blk]
  obtain ⟨-, -, -, -, e20, e21⟩ := idx_facts ⟨(i 0).val / 10000, by rw [show cfg1.N = grid1.N from rfl, hN]; omega⟩
  intro a
  match a with
  | ⟨0, _⟩ => show win1_2.index _ (0 : Fin 2) * 10000 ≤ (i 0).val ∧ (i 0).val < win1_2.index _ (0 : Fin 2) * 10000 + 10000; rw [e20]; show (i 0).val / 10000 * 10000 ≤ (i 0).val ∧ (i 0).val < (i 0).val / 10000 * 10000 + 10000; omega
  | ⟨1, _⟩ => show win1_2.index _ (1 : Fin 2) * 128 ≤ (i 1).val ∧ (i 1).val < win1_2.index _ (1 : Fin 2) * 128 + 128; rw [e21]; omega

/-- The array the kernel leaves: the host's product of the message array with the broadcast coefficient column. -/
theorem arr (c : Dev nD) (A : FVec Ideal S1700000x128 .f32) (Nrm : FVec Ideal S1700000x1 .f32)
    (hA : V c (Pipeline.arrRef spec1 0) = A) (hN : V c (Pipeline.arrRef spec1 1) = Nrm) :
    (dat1 V c).arrAt 2 cfg1.N
      = mulf (F := Ideal) A (broadcastInDim Cert.ReferenceIdeal.S1700000x128 ![0, 1] Cert.ReferenceIdeal.Facts₀.bcast_S1700000x1_S1700000x128_0_1 Nrm) :=
  (dat1 V c).arrAt_eq_of_cover 2 _ (fun t _ => flushed_eq V c t A Nrm hA hN) (cover)

end Cert.KernelIdeal.Scale1

end
-- ==== Proof.RegScale4.lean ====
/-
  The scaling kernel between a gather and a scatter-add.  Its grid walks the rows of the message array in tiles of
  10000 rows; at a tile it multiplies every row of the message tile by that row's coefficient, the one entry of the
  coefficient column's row.  A row of a tile is a row of the whole array (tile index times 10000 plus the row inside the
  tile), so the array the kernel leaves is, entry by entry, message(r, q) times coefficient(r, 0): the host's product
  of the message array with the coefficient column broadcast along the feature axis.  The tiles cover every row.
-/
import proofs.«107702_j67740224193041_2_alg».proof.Proof.Gen.KernelIdeal.Frame
import proofs.«107702_j67740224193041_2_alg».proof.ReferenceIdeal
import proofs.«107702_j67740224193041_2_alg».proof.Proof.Gen.ReferenceIdeal
import proofs.«107702_j67740224193041_2_alg».proof.Proof.LibUnitAxes
import Idealize.ShloMosaic.Lib.Pipeline.Value
import Idealize.ShloMosaic.Lib.ValueIdx
import Idealize.ShloMosaic.Lib.ValueLayout

set_option maxRecDepth 16384

noncomputable section

namespace Cert.KernelIdeal.Scale4

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The tile's product at (p, q): the message tile's entry times the coefficient column's entry of row p. -/
theorem pay_apply (x0 : FVec Ideal S10000x128 .f32) (x1 : FVec Ideal S10000x1 .f32) (p : Fin 10000) (q : Fin 128) :
    k4_pay1 x0 x1 (ix2 p q) = FloatOps.mulf (x0 (ix2 p q)) (x1 (ix2 p (0 : Fin 1))) := by
  unfold k4_pay1
  show FloatOps.mulf (shapeCast S10000x128 x0 shapeCasts_S10000x128_S10000x128 (ix2 p q))
      (broadcastTo S10000x128 (shapeCast S10000x1 x1 shapeCasts_S10000x1_S10000x1) broadcasts_S10000x1_S10000x128 (ix2 p q)) = _
  rw [shapeCast_self, shapeCast_self]
  exact congrArg _ (Cert.LibUnitAxes.broadcastTo_a1_ab_apply x1 broadcasts_S10000x1_S10000x128 p q)

/-- The whole arrays' product at (r, q): the message array's entry times the coefficient column's entry of row r. -/
theorem host_apply (A : FVec Ideal S1700000x128 .f32) (Nrm : FVec Ideal S1700000x1 .f32) (r : Fin 1700000) (q : Fin 128) :
    mulf (F := Ideal) A (broadcastInDim Cert.ReferenceIdeal.S1700000x128 ![0, 1] Cert.ReferenceIdeal.Facts₀.bcast_S1700000x1_S1700000x128_0_1 Nrm) (ix2 r q)
      = FloatOps.mulf (A (ix2 r q)) (Nrm (ix2 r (0 : Fin 1))) :=
  congrArg _ (Cert.LibUnitAxes.broadcastInDim_a1_ab_apply Nrm Cert.ReferenceIdeal.Facts₀.bcast_S1700000x1_S1700000x128_0_1 r q)

/-- The printed index maps over the grid: every window's row block is the grid point, its column block 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is tile `t` of the whole arrays' product. -/
theorem flushed_eq (c : Dev nD) (t : Fin cfg4.N) (A : FVec Ideal S1700000x128 .f32) (Nrm : FVec Ideal S1700000x1 .f32)
    (hA : V c (Pipeline.arrRef spec4 0) = A) (hN : V c (Pipeline.arrRef spec4 1) = Nrm) :
    (dat4 V c).flushed 2 t = ((cfg4.win 2).blk t).view.read (Elt Ideal)
      (mulf (F := Ideal) A (broadcastInDim Cert.ReferenceIdeal.S1700000x128 ![0, 1] Cert.ReferenceIdeal.Facts₀.bcast_S1700000x1_S1700000x128_0_1 Nrm)) := by
  show (cfg4.win 2).cut (grid4.coords t) ((dat4 V c).after 2 t) = _
  rw [after4_2]
  unfold out4_2
  rw [View.canon_unit_zero zero_offsets]
  simp only [View.ld_unit_zero (S := S10000x128) zero_offsets, View.ld_unit_zero (S := S10000x1) zero_offsets]
  obtain ⟨e00, e01, e10, e11, e20, e21⟩ := idx_facts t
  have ht : t.val < 170 := lt_of_lt_of_eq t.isLt N_4
  funext j
  obtain ⟨p, q, rfl⟩ : ∃ (p : Fin 10000) (q : Fin 128), j = ix2 p q := ⟨j 0, j 1, eq_ix2 j⟩
  have hr : t.val * 10000 + p.val < 1700000 := by have := p.isLt; omega
  have emb2 : ((cfg4.win 2).blk t).view.emb (ix2 p q) = ix2 (⟨t.val * 10000 + p.val, hr⟩ : Fin 1700000) q := by
    funext a; apply Fin.ext
    match a with
    | ⟨0, _⟩ => show win4_2.index t (0 : Fin 2) * 10000 + 1 * p.val = t.val * 10000 + p.val; omega
    | ⟨1, _⟩ => show win4_2.index t (1 : Fin 2) * 128 + 1 * q.val = q.val; omega
  have emb0 : ((cfg4.win 0).blk t).view.emb (ix2 p q) = ix2 (⟨t.val * 10000 + p.val, hr⟩ : Fin 1700000) q := by
    funext a; apply Fin.ext
    match a with
    | ⟨0, _⟩ => show win4_0.index t (0 : Fin 2) * 10000 + 1 * p.val = t.val * 10000 + p.val; omega
    | ⟨1, _⟩ => show win4_0.index t (1 : Fin 2) * 128 + 1 * q.val = q.val; omega
  have emb1 : ((cfg4.win 1).blk t).view.emb (ix2 p (0 : Fin 1)) = ix2 (⟨t.val * 10000 + p.val, hr⟩ : Fin 1700000) (0 : Fin 1) := by
    funext a; apply Fin.ext
    match a with
    | ⟨0, _⟩ => show win4_1.index t (0 : Fin 2) * 10000 + 1 * p.val = t.val * 10000 + p.val; omega
    | ⟨1, _⟩ => show win4_1.index t (1 : Fin 2) * 1 + 1 * 0 = 0; omega
  refine (pay_apply (iblk4 V c 0 t) (iblk4 V c 1 t) p q).trans ?_
  have h0 : iblk4 V c 0 t (ix2 p q) = A (ix2 (⟨t.val * 10000 + p.val, hr⟩ : Fin 1700000) q) := by
    show V c (Pipeline.arrRef spec4 0) (((cfg4.win 0).blk t).view.emb (ix2 p q)) = _
    rw [emb0, hA]
  have h1 : iblk4 V c 1 t (ix2 p (0 : Fin 1)) = Nrm (ix2 (⟨t.val * 10000 + p.val, hr⟩ : Fin 1700000) (0 : Fin 1)) := by
    show V c (Pipeline.arrRef spec4 1) (((cfg4.win 1).blk t).view.emb (ix2 p (0 : Fin 1))) = _
    rw [emb1, hN]
  show _ = (mulf (F := Ideal) A (broadcastInDim Cert.ReferenceIdeal.S1700000x128 ![0, 1] Cert.ReferenceIdeal.Facts₀.bcast_S1700000x1_S1700000x128_0_1 Nrm))
      (((cfg4.win 2).blk t).view.emb (ix2 p q))
  rw [emb2, host_apply, h0, h1]

/-- An index of the array is in point `t`'s tile iff each coordinate is in the tile's range on its axis. -/
theorem mem_blk (t : Fin cfg4.N) (i : S1700000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole (Pipeline.arrRef spec4 2)).slice (win4_2.rect t)).set ↔ _
  rw [View.set_slice_whole, Rect.mem_set_unit]
  exact Iff.rfl

/-- The tiles cover the array: row r is in tile r / 10000. -/
theorem cover (i : S1700000x128.Idx) : ∃ t : Fin cfg4.N, (cfg4.win 2).flush t = true ∧ i ∈ ((cfg4.win 2).blk t).view.set := by
  have hi0 : (i 0).val < 1700000 := (i 0).isLt
  have hi1 : (i 1).val < 128 := (i 1).isLt
  have hN : grid4.N = 170 := N_4
  refine ⟨⟨(i 0).val / 10000, by rw [show cfg4.N = grid4.N from rfl, hN]; omega⟩, flush4_2 _, ?_⟩
  rw [mem_blk]
  obtain ⟨-, -, -, -, e20, e21⟩ := idx_facts ⟨(i 0).val / 10000, by rw [show cfg4.N = grid4.N from rfl, hN]; omega⟩
  intro a
  match a with
  | ⟨0, _⟩ => show win4_2.index _ (0 : Fin 2) * 10000 ≤ (i 0).val ∧ (i 0).val < win4_2.index _ (0 : Fin 2) * 10000 + 10000; rw [e20]; show (i 0).val / 10000 * 10000 ≤ (i 0).val ∧ (i 0).val < (i 0).val / 10000 * 10000 + 10000; omega
  | ⟨1, _⟩ => show win4_2.index _ (1 : Fin 2) * 128 ≤ (i 1).val ∧ (i 1).val < win4_2.index _ (1 : Fin 2) * 128 + 128; rw [e21]; omega

/-- The array the kernel leaves: the host's product of the message array with the broadcast coefficient column. -/
theorem arr (c : Dev nD) (A : FVec Ideal S1700000x128 .f32) (Nrm : FVec Ideal S1700000x1 .f32)
    (hA : V c (Pipeline.arrRef spec4 0) = A) (hN : V c (Pipeline.arrRef spec4 1) = Nrm) :
    (dat4 V c).arrAt 2 cfg4.N
      = mulf (F := Ideal) A (broadcastInDim Cert.ReferenceIdeal.S1700000x128 ![0, 1] Cert.ReferenceIdeal.Facts₀.bcast_S1700000x1_S1700000x128_0_1 Nrm) :=
  (dat4 V c).arrAt_eq_of_cover 2 _ (fun t _ => flushed_eq V c t A Nrm hA hN) (cover)

end Cert.KernelIdeal.Scale4

end
-- ==== Proof.RegScale7.lean ====
/-
  The scaling kernel between a gather and a scatter-add.  Its grid walks the rows of the message array in tiles of
  10000 rows; at a tile it multiplies every row of the message tile by that row's coefficient, the one entry of the
  coefficient column's row.  A row of a tile is a row of the whole array (tile index times 10000 plus the row inside the
  tile), so the array the kernel leaves is, entry by entry, message(r, q) times coefficient(r, 0): the host's product
  of the message array with the coefficient column broadcast along the feature axis.  The tiles cover every row.
-/
import proofs.«107702_j67740224193041_2_alg».proof.Proof.Gen.KernelIdeal.Frame
import proofs.«107702_j67740224193041_2_alg».proof.ReferenceIdeal
import proofs.«107702_j67740224193041_2_alg».proof.Proof.Gen.ReferenceIdeal
import proofs.«107702_j67740224193041_2_alg».proof.Proof.LibUnitAxes
import Idealize.ShloMosaic.Lib.Pipeline.Value
import Idealize.ShloMosaic.Lib.ValueIdx
import Idealize.ShloMosaic.Lib.ValueLayout

set_option maxRecDepth 16384

noncomputable section

namespace Cert.KernelIdeal.Scale7

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The tile's product at (p, q): the message tile's entry times the coefficient column's entry of row p. -/
theorem pay_apply (x0 : FVec Ideal S10000x128 .f32) (x1 : FVec Ideal S10000x1 .f32) (p : Fin 10000) (q : Fin 128) :
    k7_pay1 x0 x1 (ix2 p q) = FloatOps.mulf (x0 (ix2 p q)) (x1 (ix2 p (0 : Fin 1))) := by
  unfold k7_pay1
  show FloatOps.mulf (shapeCast S10000x128 x0 shapeCasts_S10000x128_S10000x128 (ix2 p q))
      (broadcastTo S10000x128 (shapeCast S10000x1 x1 shapeCasts_S10000x1_S10000x1) broadcasts_S10000x1_S10000x128 (ix2 p q)) = _
  rw [shapeCast_self, shapeCast_self]
  exact congrArg _ (Cert.LibUnitAxes.broadcastTo_a1_ab_apply x1 broadcasts_S10000x1_S10000x128 p q)

/-- The whole arrays' product at (r, q): the message array's entry times the coefficient column's entry of row r. -/
theorem host_apply (A : FVec Ideal S1700000x128 .f32) (Nrm : FVec Ideal S1700000x1 .f32) (r : Fin 1700000) (q : Fin 128) :
    mulf (F := Ideal) A (broadcastInDim Cert.ReferenceIdeal.S1700000x128 ![0, 1] Cert.ReferenceIdeal.Facts₀.bcast_S1700000x1_S1700000x128_0_1 Nrm) (ix2 r q)
      = FloatOps.mulf (A (ix2 r q)) (Nrm (ix2 r (0 : Fin 1))) :=
  congrArg _ (Cert.LibUnitAxes.broadcastInDim_a1_ab_apply Nrm Cert.ReferenceIdeal.Facts₀.bcast_S1700000x1_S1700000x128_0_1 r q)

/-- The printed index maps over the grid: every window's row block is the grid point, its column block 0. -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- What point `t` writes back is tile `t` of the whole arrays' product. -/
theorem flushed_eq (c : Dev nD) (t : Fin cfg7.N) (A : FVec Ideal S1700000x128 .f32) (Nrm : FVec Ideal S1700000x1 .f32)
    (hA : V c (Pipeline.arrRef spec7 0) = A) (hN : V c (Pipeline.arrRef spec7 1) = Nrm) :
    (dat7 V c).flushed 2 t = ((cfg7.win 2).blk t).view.read (Elt Ideal)
      (mulf (F := Ideal) A (broadcastInDim Cert.ReferenceIdeal.S1700000x128 ![0, 1] Cert.ReferenceIdeal.Facts₀.bcast_S1700000x1_S1700000x128_0_1 Nrm)) := by
  show (cfg7.win 2).cut (grid7.coords t) ((dat7 V c).after 2 t) = _
  rw [after7_2]
  unfold out7_2
  rw [View.canon_unit_zero zero_offsets]
  simp only [View.ld_unit_zero (S := S10000x128) zero_offsets, View.ld_unit_zero (S := S10000x1) zero_offsets]
  obtain ⟨e00, e01, e10, e11, e20, e21⟩ := idx_facts t
  have ht : t.val < 170 := lt_of_lt_of_eq t.isLt N_7
  funext j
  obtain ⟨p, q, rfl⟩ : ∃ (p : Fin 10000) (q : Fin 128), j = ix2 p q := ⟨j 0, j 1, eq_ix2 j⟩
  have hr : t.val * 10000 + p.val < 1700000 := by have := p.isLt; omega
  have emb2 : ((cfg7.win 2).blk t).view.emb (ix2 p q) = ix2 (⟨t.val * 10000 + p.val, hr⟩ : Fin 1700000) q := by
    funext a; apply Fin.ext
    match a with
    | ⟨0, _⟩ => show win7_2.index t (0 : Fin 2) * 10000 + 1 * p.val = t.val * 10000 + p.val; omega
    | ⟨1, _⟩ => show win7_2.index t (1 : Fin 2) * 128 + 1 * q.val = q.val; omega
  have emb0 : ((cfg7.win 0).blk t).view.emb (ix2 p q) = ix2 (⟨t.val * 10000 + p.val, hr⟩ : Fin 1700000) q := by
    funext a; apply Fin.ext
    match a with
    | ⟨0, _⟩ => show win7_0.index t (0 : Fin 2) * 10000 + 1 * p.val = t.val * 10000 + p.val; omega
    | ⟨1, _⟩ => show win7_0.index t (1 : Fin 2) * 128 + 1 * q.val = q.val; omega
  have emb1 : ((cfg7.win 1).blk t).view.emb (ix2 p (0 : Fin 1)) = ix2 (⟨t.val * 10000 + p.val, hr⟩ : Fin 1700000) (0 : Fin 1) := by
    funext a; apply Fin.ext
    match a with
    | ⟨0, _⟩ => show win7_1.index t (0 : Fin 2) * 10000 + 1 * p.val = t.val * 10000 + p.val; omega
    | ⟨1, _⟩ => show win7_1.index t (1 : Fin 2) * 1 + 1 * 0 = 0; omega
  refine (pay_apply (iblk7 V c 0 t) (iblk7 V c 1 t) p q).trans ?_
  have h0 : iblk7 V c 0 t (ix2 p q) = A (ix2 (⟨t.val * 10000 + p.val, hr⟩ : Fin 1700000) q) := by
    show V c (Pipeline.arrRef spec7 0) (((cfg7.win 0).blk t).view.emb (ix2 p q)) = _
    rw [emb0, hA]
  have h1 : iblk7 V c 1 t (ix2 p (0 : Fin 1)) = Nrm (ix2 (⟨t.val * 10000 + p.val, hr⟩ : Fin 1700000) (0 : Fin 1)) := by
    show V c (Pipeline.arrRef spec7 1) (((cfg7.win 1).blk t).view.emb (ix2 p (0 : Fin 1))) = _
    rw [emb1, hN]
  show _ = (mulf (F := Ideal) A (broadcastInDim Cert.ReferenceIdeal.S1700000x128 ![0, 1] Cert.ReferenceIdeal.Facts₀.bcast_S1700000x1_S1700000x128_0_1 Nrm))
      (((cfg7.win 2).blk t).view.emb (ix2 p q))
  rw [emb2, host_apply, h0, h1]

/-- An index of the array is in point `t`'s tile iff each coordinate is in the tile's range on its axis. -/
theorem mem_blk (t : Fin cfg7.N) (i : S1700000x128.Idx) :
    i ∈ ((cfg7.win 2).blk t).view.set ↔ ∀ a : Fin 2, win7_2.index t a * S10000x128.size a ≤ (i a).val ∧ (i a).val < win7_2.index t a * S10000x128.size a + S10000x128.size a := by
  show i ∈ ((View.whole (Pipeline.arrRef spec7 2)).slice (win7_2.rect t)).set ↔ _
  rw [View.set_slice_whole, Rect.mem_set_unit]
  exact Iff.rfl

/-- The tiles cover the array: row r is in tile r / 10000. -/
theorem cover (i : S1700000x128.Idx) : ∃ t : Fin cfg7.N, (cfg7.win 2).flush t = true ∧ i ∈ ((cfg7.win 2).blk t).view.set := by
  have hi0 : (i 0).val < 1700000 := (i 0).isLt
  have hi1 : (i 1).val < 128 := (i 1).isLt
  have hN : grid7.N = 170 := N_7
  refine ⟨⟨(i 0).val / 10000, by rw [show cfg7.N = grid7.N from rfl, hN]; omega⟩, flush7_2 _, ?_⟩
  rw [mem_blk]
  obtain ⟨-, -, -, -, e20, e21⟩ := idx_facts ⟨(i 0).val / 10000, by rw [show cfg7.N = grid7.N from rfl, hN]; omega⟩
  intro a
  match a with
  | ⟨0, _⟩ => show win7_2.index _ (0 : Fin 2) * 10000 ≤ (i 0).val ∧ (i 0).val < win7_2.index _ (0 : Fin 2) * 10000 + 10000; rw [e20]; show (i 0).val / 10000 * 10000 ≤ (i 0).val ∧ (i 0).val < (i 0).val / 10000 * 10000 + 10000; omega
  | ⟨1, _⟩ => show win7_2.index _ (1 : Fin 2) * 128 ≤ (i 1).val ∧ (i 1).val < win7_2.index _ (1 : Fin 2) * 128 + 128; rw [e21]; omega

/-- The array the kernel leaves: the host's product of the message array with the broadcast coefficient column. -/
theorem arr (c : Dev nD) (A : FVec Ideal S1700000x128 .f32) (Nrm : FVec Ideal S1700000x1 .f32)
    (hA : V c (Pipeline.arrRef spec7 0) = A) (hN : V c (Pipeline.arrRef spec7 1) = Nrm) :
    (dat7 V c).arrAt 2 cfg7.N
      = mulf (F := Ideal) A (broadcastInDim Cert.ReferenceIdeal.S1700000x128 ![0, 1] Cert.ReferenceIdeal.Facts₀.bcast_S1700000x1_S1700000x128_0_1 Nrm) :=
  (dat7 V c).arrAt_eq_of_cover 2 _ (fun t _ => flushed_eq V c t A Nrm hA hN) (cover)

end Cert.KernelIdeal.Scale7

end
-- ==== Proof.RegBias2.lean ====
/-
  The bias-and-rectify kernel after a scatter-add.  Its grid walks the rows of the aggregated array in tiles of 10000
  rows; at every tile it sees the whole bias row, adds the bias row's entry of column q to every entry of column q of the
  tile, and keeps the larger of the sum and zero.  A row of a tile is a row of the whole array (tile index times 10000
  plus the row inside the tile) and the bias row is the same at every tile, so the array the kernel leaves is, entry by
  entry, max (A(r, q) + b(0, q)) 0: the host's maximum of the sum of the array with the bias row broadcast along the
  rows, and the zero scalar broadcast everywhere.  The tiles cover every row.
-/
import proofs.«107702_j67740224193041_2_alg».proof.Proof.Gen.KernelIdeal.Frame
import proofs.«107702_j67740224193041_2_alg».proof.ReferenceIdeal
import proofs.«107702_j67740224193041_2_alg».proof.Proof.Gen.ReferenceIdeal
import proofs.«107702_j67740224193041_2_alg».proof.Proof.LibUnitAxes
import Idealize.ShloMosaic.Lib.Pipeline.Value
import Idealize.ShloMosaic.Lib.ValueIdx
import Idealize.ShloMosaic.Lib.ValueLayout

set_option maxRecDepth 16384

noncomputable section

namespace Cert.KernelIdeal.Bias2

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The tile's result at (p, q): the larger of zero and the tile's entry plus the bias row's entry of column q. -/
theorem pay_apply (x0 : Vec Ideal S10000x128 .f32) (x1 : Vec Ideal S1x128 .f32) (p : Fin 10000) (q : Fin 128) :
    k2_pay1 x0 x1 (ix2 p q) = FloatOps.maximumf (FloatOps.addf (x0 (ix2 p q)) (x1 (ix2 (0 : Fin 1) q))) (Scalar.ofBits (F := Ideal) .f32 0x00000000#32) := by
  unfold k2_pay1
  show FloatOps.maximumf (F := Ideal) (φ := .f32) (FloatOps.addf (F := Ideal) (φ := .f32) (shapeCast S10000x128 x0 shapeCasts_S10000x128_S10000x128 (ix2 p q))
      (broadcastTo S10000x128 (shapeCast S1x128 x1 shapeCasts_S1x128_S1x128) broadcasts_S1x128_S10000x128 (ix2 p q)))
      (broadcast S10000x128 (Scalar.ofBits (F := Ideal) .f32 0x00000000#32) (ix2 p q)) = _
  rw [shapeCast_self, shapeCast_self]
  exact congrArg (fun z => FloatOps.maximumf (FloatOps.addf (x0 (ix2 p q)) z) (Scalar.ofBits (F := Ideal) .f32 0x00000000#32))
    (broadcastTo_1b_ab_apply x1 broadcasts_S1x128_S10000x128 p q)

/-- The whole arrays' result at (r, q): the larger of zero and the array's entry plus the bias row's entry of column q. -/
theorem host_apply (A : FVec Ideal S100000x128 .f32) (B : FVec Ideal S1x128 .f32) (r : Fin 100000) (q : Fin 128) :
    (maximumf (F := Ideal) (addf (F := Ideal) A (broadcastInDim Cert.ReferenceIdeal.S100000x128 ![0, 1] Cert.ReferenceIdeal.Facts₀.bcast_S1x128_S100000x128_0_1 B))
          (broadcastInDim Cert.ReferenceIdeal.S100000x128 ![] Cert.ReferenceIdeal.Facts₀.bcast_S_S100000x128 (constant (F := Ideal) Cert.ReferenceIdeal.S_ .f32 0x00000000#32))) (ix2 r q)
      = FloatOps.maximumf (FloatOps.addf (A (ix2 r q)) (B (ix2 (0 : Fin 1) q))) (Scalar.ofBits (F := Ideal) .f32 0x00000000#32) := by
  show FloatOps.maximumf (FloatOps.addf (A (ix2 r q))
      (broadcastInDim Cert.ReferenceIdeal.S100000x128 ![0, 1] Cert.ReferenceIdeal.Facts₀.bcast_S1x128_S100000x128_0_1 B (ix2 r q)))
      (broadcastInDim Cert.ReferenceIdeal.S100000x128 ![] Cert.ReferenceIdeal.Facts₀.bcast_S_S100000x128 (constant (F := Ideal) Cert.ReferenceIdeal.S_ .f32 0x00000000#32) (ix2 r q)) = _
  rw [Cert.LibUnitAxes.broadcastInDim_1b_ab_apply B Cert.ReferenceIdeal.Facts₀.bcast_S1x128_S100000x128_0_1 r q,
    Cert.LibUnitAxes.broadcastInDim_scalar_apply (constant (F := Ideal) Cert.ReferenceIdeal.S_ .f32 0x00000000#32) Cert.ReferenceIdeal.Facts₀.bcast_S_S100000x128 (ix2 r q)]
  rfl

/-- The printed index maps over the grid: the array's and the result's row block is the grid point, their column block
    0; the bias row's block is (0, 0) at every point. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is tile `t` of the whole arrays' rectified sum. -/
theorem flushed_eq (c : Dev nD) (t : Fin cfg2.N) (A : FVec Ideal S100000x128 .f32) (B : FVec Ideal S1x128 .f32)
    (hA : V c (Pipeline.arrRef spec2 0) = A) (hB : V c (Pipeline.arrRef spec2 1) = B) :
    (dat2 V c).flushed 2 t = ((cfg2.win 2).blk t).view.read (Elt Ideal)
      (maximumf (F := Ideal) (addf (F := Ideal) A (broadcastInDim Cert.ReferenceIdeal.S100000x128 ![0, 1] Cert.ReferenceIdeal.Facts₀.bcast_S1x128_S100000x128_0_1 B))
          (broadcastInDim Cert.ReferenceIdeal.S100000x128 ![] Cert.ReferenceIdeal.Facts₀.bcast_S_S100000x128 (constant (F := Ideal) Cert.ReferenceIdeal.S_ .f32 0x00000000#32))) := by
  show (cfg2.win 2).cut (grid2.coords t) ((dat2 V c).after 2 t) = _
  rw [after2_2]
  unfold out2_2
  rw [View.canon_unit_zero zero_offsets]
  simp only [View.ld_unit_zero (S := S10000x128) zero_offsets, View.ld_unit_zero (S := S1x128) zero_offsets]
  obtain ⟨e00, e01, e10, e11, e20, e21⟩ := idx_facts t
  have ht : t.val < 10 := lt_of_lt_of_eq t.isLt N_2
  funext j
  obtain ⟨p, q, rfl⟩ : ∃ (p : Fin 10000) (q : Fin 128), j = ix2 p q := ⟨j 0, j 1, eq_ix2 j⟩
  have hr : t.val * 10000 + p.val < 100000 := by have := p.isLt; omega
  have emb2 : ((cfg2.win 2).blk t).view.emb (ix2 p q) = ix2 (⟨t.val * 10000 + p.val, hr⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 128 + 1 * q.val = q.val; omega
  have emb0 : ((cfg2.win 0).blk t).view.emb (ix2 p q) = ix2 (⟨t.val * 10000 + p.val, hr⟩ : Fin 100000) q := by
    funext a; apply Fin.ext
    match a with
    | ⟨0, _⟩ => show win2_0.index t (0 : Fin 2) * 10000 + 1 * p.val = t.val * 10000 + p.val; omega
    | ⟨1, _⟩ => show win2_0.index t (1 : Fin 2) * 128 + 1 * q.val = q.val; omega
  have emb1 : ((cfg2.win 1).blk t).view.emb (ix2 (0 : Fin 1) q) = ix2 (0 : Fin 1) q := by
    funext a; apply Fin.ext
    match a with
    | ⟨0, _⟩ => show win2_1.index t (0 : Fin 2) * 1 + 1 * 0 = 0; omega
    | ⟨1, _⟩ => show win2_1.index t (1 : Fin 2) * 128 + 1 * q.val = q.val; omega
  have h0 : iblk2 V c 0 t (ix2 p q) = A (ix2 (⟨t.val * 10000 + p.val, hr⟩ : Fin 100000) q) := by
    show V c (Pipeline.arrRef spec2 0) (((cfg2.win 0).blk t).view.emb (ix2 p q)) = _
    rw [emb0, hA]
  have h1 : iblk2 V c 1 t (ix2 (0 : Fin 1) q) = B (ix2 (0 : Fin 1) q) := by
    show V c (Pipeline.arrRef spec2 1) (((cfg2.win 1).blk t).view.emb (ix2 (0 : Fin 1) q)) = _
    rw [emb1, hB]
  refine (pay_apply (iblk2 V c 0 t) (iblk2 V c 1 t) p q).trans ?_
  show _ = (maximumf (F := Ideal) (addf (F := Ideal) A (broadcastInDim Cert.ReferenceIdeal.S100000x128 ![0, 1] Cert.ReferenceIdeal.Facts₀.bcast_S1x128_S100000x128_0_1 B))
          (broadcastInDim Cert.ReferenceIdeal.S100000x128 ![] Cert.ReferenceIdeal.Facts₀.bcast_S_S100000x128 (constant (F := Ideal) Cert.ReferenceIdeal.S_ .f32 0x00000000#32))) (((cfg2.win 2).blk t).view.emb (ix2 p q))
  rw [emb2, host_apply, h0, h1]

/-- An index of the array is in point `t`'s tile iff each coordinate is in the tile's range on its axis. -/
theorem mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole (Pipeline.arrRef spec2 2)).slice (win2_2.rect t)).set ↔ _
  rw [View.set_slice_whole, Rect.mem_set_unit]
  exact Iff.rfl

/-- The tiles cover the array: row r is in tile r / 10000. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 10 := N_2
  refine ⟨⟨(i 0).val / 10000, by rw [show cfg2.N = grid2.N from rfl, hN]; omega⟩, flush2_2 _, ?_⟩
  rw [mem_blk]
  obtain ⟨-, -, -, -, e20, e21⟩ := idx_facts ⟨(i 0).val / 10000, by rw [show cfg2.N = grid2.N from rfl, hN]; omega⟩
  intro a
  match a with
  | ⟨0, _⟩ => show win2_2.index _ (0 : Fin 2) * 10000 ≤ (i 0).val ∧ (i 0).val < win2_2.index _ (0 : Fin 2) * 10000 + 10000; rw [e20]; show (i 0).val / 10000 * 10000 ≤ (i 0).val ∧ (i 0).val < (i 0).val / 10000 * 10000 + 10000; omega
  | ⟨1, _⟩ => show win2_2.index _ (1 : Fin 2) * 128 ≤ (i 1).val ∧ (i 1).val < win2_2.index _ (1 : Fin 2) * 128 + 128; rw [e21]; omega

/-- The array the kernel leaves: the host's maximum of zero and the sum of the array with the broadcast bias row. -/
theorem arr (c : Dev nD) (A : FVec Ideal S100000x128 .f32) (B : FVec Ideal S1x128 .f32)
    (hA : V c (Pipeline.arrRef spec2 0) = A) (hB : V c (Pipeline.arrRef spec2 1) = B) :
    (dat2 V c).arrAt 2 cfg2.N
      = maximumf (F := Ideal) (addf (F := Ideal) A (broadcastInDim Cert.ReferenceIdeal.S100000x128 ![0, 1] Cert.ReferenceIdeal.Facts₀.bcast_S1x128_S100000x128_0_1 B))
          (broadcastInDim Cert.ReferenceIdeal.S100000x128 ![] Cert.ReferenceIdeal.Facts₀.bcast_S_S100000x128 (constant (F := Ideal) Cert.ReferenceIdeal.S_ .f32 0x00000000#32)) :=
  (dat2 V c).arrAt_eq_of_cover 2 _ (fun t _ => flushed_eq V c t A B hA hB) (cover)

end Cert.KernelIdeal.Bias2

end
-- ==== Proof.RegBias5.lean ====
/-
  The bias-and-rectify kernel after a scatter-add.  Its grid walks the rows of the aggregated array in tiles of 10000
  rows; at every tile it sees the whole bias row, adds the bias row's entry of column q to every entry of column q of the
  tile, and keeps the larger of the sum and zero.  A row of a tile is a row of the whole array (tile index times 10000
  plus the row inside the tile) and the bias row is the same at every tile, so the array the kernel leaves is, entry by
  entry, max (A(r, q) + b(0, q)) 0: the host's maximum of the sum of the array with the bias row broadcast along the
  rows, and the zero scalar broadcast everywhere.  The tiles cover every row.
-/
import proofs.«107702_j67740224193041_2_alg».proof.Proof.Gen.KernelIdeal.Frame
import proofs.«107702_j67740224193041_2_alg».proof.ReferenceIdeal
import proofs.«107702_j67740224193041_2_alg».proof.Proof.Gen.ReferenceIdeal
import proofs.«107702_j67740224193041_2_alg».proof.Proof.LibUnitAxes
import Idealize.ShloMosaic.Lib.Pipeline.Value
import Idealize.ShloMosaic.Lib.ValueIdx
import Idealize.ShloMosaic.Lib.ValueLayout

set_option maxRecDepth 16384

noncomputable section

namespace Cert.KernelIdeal.Bias5

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The tile's result at (p, q): the larger of zero and the tile's entry plus the bias row's entry of column q. -/
theorem pay_apply (x0 : Vec Ideal S10000x128 .f32) (x1 : Vec Ideal S1x128 .f32) (p : Fin 10000) (q : Fin 128) :
    k5_pay1 x0 x1 (ix2 p q) = FloatOps.maximumf (FloatOps.addf (x0 (ix2 p q)) (x1 (ix2 (0 : Fin 1) q))) (Scalar.ofBits (F := Ideal) .f32 0x00000000#32) := by
  unfold k5_pay1
  show FloatOps.maximumf (F := Ideal) (φ := .f32) (FloatOps.addf (F := Ideal) (φ := .f32) (shapeCast S10000x128 x0 shapeCasts_S10000x128_S10000x128 (ix2 p q))
      (broadcastTo S10000x128 (shapeCast S1x128 x1 shapeCasts_S1x128_S1x128) broadcasts_S1x128_S10000x128 (ix2 p q)))
      (broadcast S10000x128 (Scalar.ofBits (F := Ideal) .f32 0x00000000#32) (ix2 p q)) = _
  rw [shapeCast_self, shapeCast_self]
  exact congrArg (fun z => FloatOps.maximumf (FloatOps.addf (x0 (ix2 p q)) z) (Scalar.ofBits (F := Ideal) .f32 0x00000000#32))
    (broadcastTo_1b_ab_apply x1 broadcasts_S1x128_S10000x128 p q)

/-- The whole arrays' result at (r, q): the larger of zero and the array's entry plus the bias row's entry of column q. -/
theorem host_apply (A : FVec Ideal S100000x128 .f32) (B : FVec Ideal S1x128 .f32) (r : Fin 100000) (q : Fin 128) :
    (maximumf (F := Ideal) (addf (F := Ideal) A (broadcastInDim Cert.ReferenceIdeal.S100000x128 ![0, 1] Cert.ReferenceIdeal.Facts₀.bcast_S1x128_S100000x128_0_1 B))
          (broadcastInDim Cert.ReferenceIdeal.S100000x128 ![] Cert.ReferenceIdeal.Facts₀.bcast_S_S100000x128 (constant (F := Ideal) Cert.ReferenceIdeal.S_ .f32 0x00000000#32))) (ix2 r q)
      = FloatOps.maximumf (FloatOps.addf (A (ix2 r q)) (B (ix2 (0 : Fin 1) q))) (Scalar.ofBits (F := Ideal) .f32 0x00000000#32) := by
  show FloatOps.maximumf (FloatOps.addf (A (ix2 r q))
      (broadcastInDim Cert.ReferenceIdeal.S100000x128 ![0, 1] Cert.ReferenceIdeal.Facts₀.bcast_S1x128_S100000x128_0_1 B (ix2 r q)))
      (broadcastInDim Cert.ReferenceIdeal.S100000x128 ![] Cert.ReferenceIdeal.Facts₀.bcast_S_S100000x128 (constant (F := Ideal) Cert.ReferenceIdeal.S_ .f32 0x00000000#32) (ix2 r q)) = _
  rw [Cert.LibUnitAxes.broadcastInDim_1b_ab_apply B Cert.ReferenceIdeal.Facts₀.bcast_S1x128_S100000x128_0_1 r q,
    Cert.LibUnitAxes.broadcastInDim_scalar_apply (constant (F := Ideal) Cert.ReferenceIdeal.S_ .f32 0x00000000#32) Cert.ReferenceIdeal.Facts₀.bcast_S_S100000x128 (ix2 r q)]
  rfl

/-- The printed index maps over the grid: the array's and the result's row block is the grid point, their column block
    0; the bias row's block is (0, 0) at every point. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is tile `t` of the whole arrays' rectified sum. -/
theorem flushed_eq (c : Dev nD) (t : Fin cfg5.N) (A : FVec Ideal S100000x128 .f32) (B : FVec Ideal S1x128 .f32)
    (hA : V c (Pipeline.arrRef spec5 0) = A) (hB : V c (Pipeline.arrRef spec5 1) = B) :
    (dat5 V c).flushed 2 t = ((cfg5.win 2).blk t).view.read (Elt Ideal)
      (maximumf (F := Ideal) (addf (F := Ideal) A (broadcastInDim Cert.ReferenceIdeal.S100000x128 ![0, 1] Cert.ReferenceIdeal.Facts₀.bcast_S1x128_S100000x128_0_1 B))
          (broadcastInDim Cert.ReferenceIdeal.S100000x128 ![] Cert.ReferenceIdeal.Facts₀.bcast_S_S100000x128 (constant (F := Ideal) Cert.ReferenceIdeal.S_ .f32 0x00000000#32))) := by
  show (cfg5.win 2).cut (grid5.coords t) ((dat5 V c).after 2 t) = _
  rw [after5_2]
  unfold out5_2
  rw [View.canon_unit_zero zero_offsets]
  simp only [View.ld_unit_zero (S := S10000x128) zero_offsets, View.ld_unit_zero (S := S1x128) zero_offsets]
  obtain ⟨e00, e01, e10, e11, e20, e21⟩ := idx_facts t
  have ht : t.val < 10 := lt_of_lt_of_eq t.isLt N_5
  funext j
  obtain ⟨p, q, rfl⟩ : ∃ (p : Fin 10000) (q : Fin 128), j = ix2 p q := ⟨j 0, j 1, eq_ix2 j⟩
  have hr : t.val * 10000 + p.val < 100000 := by have := p.isLt; omega
  have emb2 : ((cfg5.win 2).blk t).view.emb (ix2 p q) = ix2 (⟨t.val * 10000 + p.val, hr⟩ : Fin 100000) q := by
    funext a; apply Fin.ext
    match a with
    | ⟨0, _⟩ => show win5_2.index t (0 : Fin 2) * 10000 + 1 * p.val = t.val * 10000 + p.val; omega
    | ⟨1, _⟩ => show win5_2.index t (1 : Fin 2) * 128 + 1 * q.val = q.val; omega
  have emb0 : ((cfg5.win 0).blk t).view.emb (ix2 p q) = ix2 (⟨t.val * 10000 + p.val, hr⟩ : Fin 100000) q := by
    funext a; apply Fin.ext
    match a with
    | ⟨0, _⟩ => show win5_0.index t (0 : Fin 2) * 10000 + 1 * p.val = t.val * 10000 + p.val; omega
    | ⟨1, _⟩ => show win5_0.index t (1 : Fin 2) * 128 + 1 * q.val = q.val; omega
  have emb1 : ((cfg5.win 1).blk t).view.emb (ix2 (0 : Fin 1) q) = ix2 (0 : Fin 1) q := by
    funext a; apply Fin.ext
    match a with
    | ⟨0, _⟩ => show win5_1.index t (0 : Fin 2) * 1 + 1 * 0 = 0; omega
    | ⟨1, _⟩ => show win5_1.index t (1 : Fin 2) * 128 + 1 * q.val = q.val; omega
  have h0 : iblk5 V c 0 t (ix2 p q) = A (ix2 (⟨t.val * 10000 + p.val, hr⟩ : Fin 100000) q) := by
    show V c (Pipeline.arrRef spec5 0) (((cfg5.win 0).blk t).view.emb (ix2 p q)) = _
    rw [emb0, hA]
  have h1 : iblk5 V c 1 t (ix2 (0 : Fin 1) q) = B (ix2 (0 : Fin 1) q) := by
    show V c (Pipeline.arrRef spec5 1) (((cfg5.win 1).blk t).view.emb (ix2 (0 : Fin 1) q)) = _
    rw [emb1, hB]
  refine (pay_apply (iblk5 V c 0 t) (iblk5 V c 1 t) p q).trans ?_
  show _ = (maximumf (F := Ideal) (addf (F := Ideal) A (broadcastInDim Cert.ReferenceIdeal.S100000x128 ![0, 1] Cert.ReferenceIdeal.Facts₀.bcast_S1x128_S100000x128_0_1 B))
          (broadcastInDim Cert.ReferenceIdeal.S100000x128 ![] Cert.ReferenceIdeal.Facts₀.bcast_S_S100000x128 (constant (F := Ideal) Cert.ReferenceIdeal.S_ .f32 0x00000000#32))) (((cfg5.win 2).blk t).view.emb (ix2 p q))
  rw [emb2, host_apply, h0, h1]

/-- An index of the array is in point `t`'s tile iff each coordinate is in the tile's range on its axis. -/
theorem mem_blk (t : Fin cfg5.N) (i : S100000x128.Idx) :
    i ∈ ((cfg5.win 2).blk t).view.set ↔ ∀ a : Fin 2, win5_2.index t a * S10000x128.size a ≤ (i a).val ∧ (i a).val < win5_2.index t a * S10000x128.size a + S10000x128.size a := by
  show i ∈ ((View.whole (Pipeline.arrRef spec5 2)).slice (win5_2.rect t)).set ↔ _
  rw [View.set_slice_whole, Rect.mem_set_unit]
  exact Iff.rfl

/-- The tiles cover the array: row r is in tile r / 10000. -/
theorem cover (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  have hN : grid5.N = 10 := N_5
  refine ⟨⟨(i 0).val / 10000, by rw [show cfg5.N = grid5.N from rfl, hN]; omega⟩, flush5_2 _, ?_⟩
  rw [mem_blk]
  obtain ⟨-, -, -, -, e20, e21⟩ := idx_facts ⟨(i 0).val / 10000, by rw [show cfg5.N = grid5.N from rfl, hN]; omega⟩
  intro a
  match a with
  | ⟨0, _⟩ => show win5_2.index _ (0 : Fin 2) * 10000 ≤ (i 0).val ∧ (i 0).val < win5_2.index _ (0 : Fin 2) * 10000 + 10000; rw [e20]; show (i 0).val / 10000 * 10000 ≤ (i 0).val ∧ (i 0).val < (i 0).val / 10000 * 10000 + 10000; omega
  | ⟨1, _⟩ => show win5_2.index _ (1 : Fin 2) * 128 ≤ (i 1).val ∧ (i 1).val < win5_2.index _ (1 : Fin 2) * 128 + 128; rw [e21]; omega

/-- The array the kernel leaves: the host's maximum of zero and the sum of the array with the broadcast bias row. -/
theorem arr (c : Dev nD) (A : FVec Ideal S100000x128 .f32) (B : FVec Ideal S1x128 .f32)
    (hA : V c (Pipeline.arrRef spec5 0) = A) (hB : V c (Pipeline.arrRef spec5 1) = B) :
    (dat5 V c).arrAt 2 cfg5.N
      = maximumf (F := Ideal) (addf (F := Ideal) A (broadcastInDim Cert.ReferenceIdeal.S100000x128 ![0, 1] Cert.ReferenceIdeal.Facts₀.bcast_S1x128_S100000x128_0_1 B))
          (broadcastInDim Cert.ReferenceIdeal.S100000x128 ![] Cert.ReferenceIdeal.Facts₀.bcast_S_S100000x128 (constant (F := Ideal) Cert.ReferenceIdeal.S_ .f32 0x00000000#32)) :=
  (dat5 V c).arrAt_eq_of_cover 2 _ (fun t _ => flushed_eq V c t A B hA hB) (cover)

end Cert.KernelIdeal.Bias5

end
-- ==== Proof.RegBias8.lean ====
/-
  The bias kernel after the last scatter-add.  Its grid walks the rows of the aggregated array in tiles of 10000 rows;
  at every tile it sees the whole bias row and adds the bias row's entry of column q to every entry of column q of the
  tile.  A row of a tile is a row of the whole array (tile index times 10000 plus the row inside the tile) and the bias
  row is the same at every tile, so the array the kernel leaves is, entry by entry, A(r, q) + b(0, q): the host's sum
  of the array with the bias row broadcast along the rows.  The tiles cover every row.
-/
import proofs.«107702_j67740224193041_2_alg».proof.Proof.Gen.KernelIdeal.Frame
import proofs.«107702_j67740224193041_2_alg».proof.ReferenceIdeal
import proofs.«107702_j67740224193041_2_alg».proof.Proof.Gen.ReferenceIdeal
import proofs.«107702_j67740224193041_2_alg».proof.Proof.LibUnitAxes
import Idealize.ShloMosaic.Lib.Pipeline.Value
import Idealize.ShloMosaic.Lib.ValueIdx
import Idealize.ShloMosaic.Lib.ValueLayout

set_option maxRecDepth 16384

noncomputable section

namespace Cert.KernelIdeal.Bias8

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The tile's sum at (p, q): the tile's entry plus the bias row's entry of column q. -/
theorem pay_apply (x0 : Vec Ideal S10000x128 .f32) (x1 : Vec Ideal S1x128 .f32) (p : Fin 10000) (q : Fin 128) :
    k8_pay1 x0 x1 (ix2 p q) = FloatOps.addf (x0 (ix2 p q)) (x1 (ix2 (0 : Fin 1) q)) := by
  unfold k8_pay1
  show FloatOps.addf (F := Ideal) (φ := .f32) (shapeCast S10000x128 x0 shapeCasts_S10000x128_S10000x128 (ix2 p q))
      (broadcastTo S10000x128 (shapeCast S1x128 x1 shapeCasts_S1x128_S1x128) broadcasts_S1x128_S10000x128 (ix2 p q)) = _
  rw [shapeCast_self, shapeCast_self]
  exact congrArg _ (broadcastTo_1b_ab_apply x1 broadcasts_S1x128_S10000x128 p q)

/-- The whole arrays' sum at (r, q): the array's entry plus the bias row's entry of column q. -/
theorem host_apply (A : FVec Ideal S100000x128 .f32) (B : FVec Ideal S1x128 .f32) (r : Fin 100000) (q : Fin 128) :
    (addf (F := Ideal) A (broadcastInDim Cert.ReferenceIdeal.S100000x128 ![0, 1] Cert.ReferenceIdeal.Facts₀.bcast_S1x128_S100000x128_0_1 B)) (ix2 r q)
      = FloatOps.addf (A (ix2 r q)) (B (ix2 (0 : Fin 1) q)) :=
  congrArg _ (Cert.LibUnitAxes.broadcastInDim_1b_ab_apply B Cert.ReferenceIdeal.Facts₀.bcast_S1x128_S100000x128_0_1 r q)

/-- The printed index maps over the grid: the array's and the result's row block is the grid point, their column block
    0; the bias row's block is (0, 0) at every point. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What point `t` writes back is tile `t` of the whole arrays' sum. -/
theorem flushed_eq (c : Dev nD) (t : Fin cfg8.N) (A : FVec Ideal S100000x128 .f32) (B : FVec Ideal S1x128 .f32)
    (hA : V c (Pipeline.arrRef spec8 0) = A) (hB : V c (Pipeline.arrRef spec8 1) = B) :
    (dat8 V c).flushed 2 t = ((cfg8.win 2).blk t).view.read (Elt Ideal)
      (addf (F := Ideal) A (broadcastInDim Cert.ReferenceIdeal.S100000x128 ![0, 1] Cert.ReferenceIdeal.Facts₀.bcast_S1x128_S100000x128_0_1 B)) := by
  show (cfg8.win 2).cut (grid8.coords t) ((dat8 V c).after 2 t) = _
  rw [after8_2]
  unfold out8_2
  rw [View.canon_unit_zero zero_offsets]
  simp only [View.ld_unit_zero (S := S10000x128) zero_offsets, View.ld_unit_zero (S := S1x128) zero_offsets]
  obtain ⟨e00, e01, e10, e11, e20, e21⟩ := idx_facts t
  have ht : t.val < 10 := lt_of_lt_of_eq t.isLt N_8
  funext j
  obtain ⟨p, q, rfl⟩ : ∃ (p : Fin 10000) (q : Fin 128), j = ix2 p q := ⟨j 0, j 1, eq_ix2 j⟩
  have hr : t.val * 10000 + p.val < 100000 := by have := p.isLt; omega
  have emb2 : ((cfg8.win 2).blk t).view.emb (ix2 p q) = ix2 (⟨t.val * 10000 + p.val, hr⟩ : Fin 100000) q := by
    funext a; apply Fin.ext
    match a with
    | ⟨0, _⟩ => show win8_2.index t (0 : Fin 2) * 10000 + 1 * p.val = t.val * 10000 + p.val; omega
    | ⟨1, _⟩ => show win8_2.index t (1 : Fin 2) * 128 + 1 * q.val = q.val; omega
  have emb0 : ((cfg8.win 0).blk t).view.emb (ix2 p q) = ix2 (⟨t.val * 10000 + p.val, hr⟩ : Fin 100000) q := by
    funext a; apply Fin.ext
    match a with
    | ⟨0, _⟩ => show win8_0.index t (0 : Fin 2) * 10000 + 1 * p.val = t.val * 10000 + p.val; omega
    | ⟨1, _⟩ => show win8_0.index t (1 : Fin 2) * 128 + 1 * q.val = q.val; omega
  have emb1 : ((cfg8.win 1).blk t).view.emb (ix2 (0 : Fin 1) q) = ix2 (0 : Fin 1) q := by
    funext a; apply Fin.ext
    match a with
    | ⟨0, _⟩ => show win8_1.index t (0 : Fin 2) * 1 + 1 * 0 = 0; omega
    | ⟨1, _⟩ => show win8_1.index t (1 : Fin 2) * 128 + 1 * q.val = q.val; omega
  have h0 : iblk8 V c 0 t (ix2 p q) = A (ix2 (⟨t.val * 10000 + p.val, hr⟩ : Fin 100000) q) := by
    show V c (Pipeline.arrRef spec8 0) (((cfg8.win 0).blk t).view.emb (ix2 p q)) = _
    rw [emb0, hA]
  have h1 : iblk8 V c 1 t (ix2 (0 : Fin 1) q) = B (ix2 (0 : Fin 1) q) := by
    show V c (Pipeline.arrRef spec8 1) (((cfg8.win 1).blk t).view.emb (ix2 (0 : Fin 1) q)) = _
    rw [emb1, hB]
  refine (pay_apply (iblk8 V c 0 t) (iblk8 V c 1 t) p q).trans ?_
  show _ = (addf (F := Ideal) A (broadcastInDim Cert.ReferenceIdeal.S100000x128 ![0, 1] Cert.ReferenceIdeal.Facts₀.bcast_S1x128_S100000x128_0_1 B)) (((cfg8.win 2).blk t).view.emb (ix2 p q))
  rw [emb2, host_apply, h0, h1]

/-- An index of the array is in point `t`'s tile iff each coordinate is in the tile's range on its axis. -/
theorem mem_blk (t : Fin cfg8.N) (i : S100000x128.Idx) :
    i ∈ ((cfg8.win 2).blk t).view.set ↔ ∀ a : Fin 2, win8_2.index t a * S10000x128.size a ≤ (i a).val ∧ (i a).val < win8_2.index t a * S10000x128.size a + S10000x128.size a := by
  show i ∈ ((View.whole (Pipeline.arrRef spec8 2)).slice (win8_2.rect t)).set ↔ _
  rw [View.set_slice_whole, Rect.mem_set_unit]
  exact Iff.rfl

/-- The tiles cover the array: row r is in tile r / 10000. -/
theorem cover (i : S100000x128.Idx) : ∃ t : Fin cfg8.N, (cfg8.win 2).flush t = true ∧ i ∈ ((cfg8.win 2).blk t).view.set := by
  have hi0 : (i 0).val < 100000 := (i 0).isLt
  have hi1 : (i 1).val < 128 := (i 1).isLt
  have hN : grid8.N = 10 := N_8
  refine ⟨⟨(i 0).val / 10000, by rw [show cfg8.N = grid8.N from rfl, hN]; omega⟩, flush8_2 _, ?_⟩
  rw [mem_blk]
  obtain ⟨-, -, -, -, e20, e21⟩ := idx_facts ⟨(i 0).val / 10000, by rw [show cfg8.N = grid8.N from rfl, hN]; omega⟩
  intro a
  match a with
  | ⟨0, _⟩ => show win8_2.index _ (0 : Fin 2) * 10000 ≤ (i 0).val ∧ (i 0).val < win8_2.index _ (0 : Fin 2) * 10000 + 10000; rw [e20]; show (i 0).val / 10000 * 10000 ≤ (i 0).val ∧ (i 0).val < (i 0).val / 10000 * 10000 + 10000; omega
  | ⟨1, _⟩ => show win8_2.index _ (1 : Fin 2) * 128 ≤ (i 1).val ∧ (i 1).val < win8_2.index _ (1 : Fin 2) * 128 + 128; rw [e21]; omega

/-- The array the kernel leaves: the host's sum of the array with the broadcast bias row. -/
theorem arr (c : Dev nD) (A : FVec Ideal S100000x128 .f32) (B : FVec Ideal S1x128 .f32)
    (hA : V c (Pipeline.arrRef spec8 0) = A) (hB : V c (Pipeline.arrRef spec8 1) = B) :
    (dat8 V c).arrAt 2 cfg8.N
      = addf (F := Ideal) A (broadcastInDim Cert.ReferenceIdeal.S100000x128 ![0, 1] Cert.ReferenceIdeal.Facts₀.bcast_S1x128_S100000x128_0_1 B) :=
  (dat8 V c).arrAt_eq_of_cover 2 _ (fun t _ => flushed_eq V c t A B hA hB) (cover)

end Cert.KernelIdeal.Bias8

end
-- ==== Proof.Chain.lean ====
/-
  The idealized kernel's buffers, followed through @main.  At every boundary between segments the buffers that later
  segments read hold the specification's values: the edge endpoints `src` and `dst` and the coefficient column from the
  first stretch on; after each matrix-product kernel the product; after each gather the gathered rows; after each
  scaling kernel the scaled messages; after each scatter-add the propagated array; after each bias kernel the layer's
  output.  A host stretch applies its operations to what the boundary before it holds; a kernel changes only its output
  array; no segment writes an argument.  The last stretch is the pooled linear head.
-/
import proofs.«107702_j67740224193041_2_alg».proof.Proof.Gen.KernelIdeal.Frame
import proofs.«107702_j67740224193041_2_alg».proof.Proof.Spec
import proofs.«107702_j67740224193041_2_alg».proof.Proof.LibUnitAxes
import Idealize.ShloMosaic.Lib.StableHlo.Run
import proofs.«107702_j67740224193041_2_alg».proof.Proof.RegMatmul0
import proofs.«107702_j67740224193041_2_alg».proof.Proof.RegMatmul3
import proofs.«107702_j67740224193041_2_alg».proof.Proof.RegMatmul6
import proofs.«107702_j67740224193041_2_alg».proof.Proof.RegScale1
import proofs.«107702_j67740224193041_2_alg».proof.Proof.RegScale4
import proofs.«107702_j67740224193041_2_alg».proof.Proof.RegScale7
import proofs.«107702_j67740224193041_2_alg».proof.Proof.RegBias2
import proofs.«107702_j67740224193041_2_alg».proof.Proof.RegBias5
import proofs.«107702_j67740224193041_2_alg».proof.Proof.RegBias8

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The launch contents of the arguments. -/
abbrev X0 : FVec Ideal S100000x9 .f32 := m ((c : Thread nD τ).loc main_arg0)
abbrev X1 : IVec S2x1600000 32 := m ((c : Thread nD τ).loc main_arg1)
abbrev X2 : IVec S100000 32 := m ((c : Thread nD τ).loc main_arg2)
abbrev X3 : FVec Ideal S9x128 .f32 := m ((c : Thread nD τ).loc main_arg3)
abbrev X4 : FVec Ideal S128 .f32 := m ((c : Thread nD τ).loc main_arg4)
abbrev X5 : FVec Ideal S128x128 .f32 := m ((c : Thread nD τ).loc main_arg5)
abbrev X6 : FVec Ideal S128 .f32 := m ((c : Thread nD τ).loc main_arg6)
abbrev X7 : FVec Ideal S128x128 .f32 := m ((c : Thread nD τ).loc main_arg7)
abbrev X8 : FVec Ideal S128 .f32 := m ((c : Thread nD τ).loc main_arg8)
abbrev X9 : FVec Ideal S128x1 .f32 := m ((c : Thread nD τ).loc main_arg9)
abbrev X10 : FVec Ideal S1 .f32 := m ((c : Thread nD τ).loc main_arg10)

/-- The network's stages at the launch arguments. -/
abbrev HW1 : FVec Ideal S100000x128 .f32 := Cert.Spec.hw1 (X0 m c) (X3 m c)
abbrev H1 : FVec Ideal S100000x128 .f32 := Cert.Spec.h1 (X0 m c) (X1 m c) (X3 m c) (X4 m c)
abbrev HW2 : FVec Ideal S100000x128 .f32 := Cert.Spec.hwNext (H1 m c) (X5 m c)
abbrev H2 : FVec Ideal S100000x128 .f32 := Cert.Spec.h2 (X0 m c) (X1 m c) (X3 m c) (X4 m c) (X5 m c) (X6 m c)
abbrev HW3 : FVec Ideal S100000x128 .f32 := Cert.Spec.hwNext (H2 m c) (X7 m c)
abbrev H3 : FVec Ideal S100000x128 .f32 := Cert.Spec.h3 (X0 m c) (X1 m c) (X3 m c) (X4 m c) (X5 m c) (X6 m c) (X7 m c) (X8 m c)

/-! ## The coefficient column at region 0's entry -/

/-- The inlined selection of a coefficient's factor: from any contents, where the degree is positive the
    reciprocal root, elsewhere the constant. -/
theorem where_v16 (Vv : Valuation τ sig (Elt Ideal)) :
    after hostOps0_1 Vv (Proc.devRef .tc main_v16)
      = select (Vv (Proc.devRef .tc main_v12)) (Vv (Proc.devRef .tc main_v15))
          (broadcastInDim S100000 ![] bcast_S_S100000 (id (Vv (Proc.devRef .tc main_cst_3)))) := by
  simp (disch := decide) only [hostOps0_1, TRef.unary, TRef.ternary, after_cons, after_nil,
    nullary_result', unary_result', binary_result', ternary_result', reshape_result',
    nullary_result_ne', unary_result_ne', binary_result_ne', ternary_result_ne', reshape_result_ne']
  rfl

/-- The factor rsqrt(max(deg, ε)) where deg > 0, else 0, of every node. -/
theorem at2_v16 : W2 m ρ c (Proc.devRef .tc main_v16) = (select (cmpf (F := Ideal) .ogt (Host.scatterAdd scatter_S100000_S1700000x1_S1700000_n_0_0_1 (broadcastInDim S100000 ![] bcast_S_S100000 (constant (F := Ideal) S_ .f32 0x00000000#32)) (broadcastInDim S1700000x1 ![0] bcast_S1700000_S1700000x1_0 (Cert.Spec.dst (X1 m c))) (broadcastInDim S1700000 ![] bcast_S_S1700000 (constant (F := Ideal) S_ .f32 0x3F800000#32))) (broadcastInDim S100000 ![] bcast_S_S100000 (constant (F := Ideal) S_ .f32 0x00000000#32))) (Host.rsqrt (maximumf (Host.scatterAdd scatter_S100000_S1700000x1_S1700000_n_0_0_1 (broadcastInDim S100000 ![] bcast_S_S100000 (constant (F := Ideal) S_ .f32 0x00000000#32)) (broadcastInDim S1700000x1 ![0] bcast_S1700000_S1700000x1_0 (Cert.Spec.dst (X1 m c))) (broadcastInDim S1700000 ![] bcast_S_S1700000 (constant (F := Ideal) S_ .f32 0x3F800000#32))) (broadcastInDim S100000 ![] bcast_S_S100000 (constant (F := Ideal) S_ .f32 0x2B8CBCCC#32)))) (broadcastInDim S100000 ![] bcast_S_S100000 (id (constant (F := Ideal) S_ .f32 0x00000000#32)))) := by
  show after hostOps0_1 (W1 m ρ c) (Proc.devRef .tc main_v16) = _
  rw [where_v16]
  simp (disch := decide) only [W1, W0, hostOps0, after_cons, after_nil,
    nullary_result', unary_result', binary_result', ternary_result', reshape_result',
    nullary_result_ne', unary_result_ne', binary_result_ne', ternary_result_ne', reshape_result_ne']
  rfl

theorem at3_v32 : W3 m ρ c (Proc.devRef .tc main_v32) = Cert.Spec.norm (F := Ideal) (X1 m c) := by
  have e16 := at2_v16 m ρ c
  have e3 : W2 m ρ c (Proc.devRef .tc main_v3) = Cert.Spec.src (X1 m c) := by
    simp (disch := decide) only [W2, W1, W0, hostOps0, hostOps0_1, TRef.unary, TRef.ternary, after_cons, after_nil,
    nullary_result', unary_result', binary_result', ternary_result', reshape_result',
    nullary_result_ne', unary_result_ne', binary_result_ne', ternary_result_ne', reshape_result_ne']
    rfl
  have e6 : W2 m ρ c (Proc.devRef .tc main_v6) = Cert.Spec.dst (X1 m c) := by
    simp (disch := decide) only [W2, W1, W0, hostOps0, hostOps0_1, TRef.unary, TRef.ternary, after_cons, after_nil,
    nullary_result', unary_result', binary_result', ternary_result', reshape_result',
    nullary_result_ne', unary_result_ne', binary_result_ne', ternary_result_ne', reshape_result_ne']
    rfl
  show after hostOps0_2 (W2 m ρ c) (Proc.devRef .tc main_v32) = _
  generalize W2 m ρ c = V2 at e16 e3 e6 ⊢
  simp (disch := decide) only [hostOps0_2, after_cons, after_nil,
    nullary_result', unary_result', binary_result', ternary_result', reshape_result',
    nullary_result_ne', unary_result_ne', binary_result_ne', ternary_result_ne', reshape_result_ne']
  rw [e16, e3, e6]
  rfl

/-! ## A scaling kernel leaves its coefficient column as it found it -/

theorem pass6_v32 : W6 m ρ c (Proc.devRef .tc main_v32) = W5 m ρ c (Proc.devRef .tc main_v32) :=
  (W6_arr m ρ c 1).trans (((dat1 (V5 m ρ) c).arrAt_in 1 rfl _).trans (A_eq1 (V5 m ρ) c 1))
theorem pass11_v32 : W11 m ρ c (Proc.devRef .tc main_v32) = W10 m ρ c (Proc.devRef .tc main_v32) :=
  (W11_arr m ρ c 1).trans (((dat4 (V10 m ρ) c).arrAt_in 1 rfl _).trans (A_eq4 (V10 m ρ) c 1))
theorem pass16_v32 : W16 m ρ c (Proc.devRef .tc main_v32) = W15 m ρ c (Proc.devRef .tc main_v32) :=
  (W16_arr m ρ c 1).trans (((dat7 (V15 m ρ) c).arrAt_in 1 rfl _).trans (A_eq7 (V15 m ρ) c 1))

/-! ## Region 0's entry: the buffers later segments read -/

theorem at3_arg0 : W3 m ρ c (Proc.devRef .tc main_arg0) = X0 m c := by
  simp (disch := decide) only [W3, W2, W1, W0, hostOps0, hostOps0_1, hostOps0_2, TRef.unary, TRef.ternary, after_cons, after_nil, nullary_result', unary_result', binary_result', ternary_result', reshape_result', nullary_result_ne', unary_result_ne', binary_result_ne', ternary_result_ne', reshape_result_ne'] <;> rfl
theorem at3_arg3 : W3 m ρ c (Proc.devRef .tc main_arg3) = X3 m c := by
  simp (disch := decide) only [W3, W2, W1, W0, hostOps0, hostOps0_1, hostOps0_2, TRef.unary, TRef.ternary, after_cons, after_nil, nullary_result', unary_result', binary_result', ternary_result', reshape_result', nullary_result_ne', unary_result_ne', binary_result_ne', ternary_result_ne', reshape_result_ne'] <;> rfl
theorem at3_v3 : W3 m ρ c (Proc.devRef .tc main_v3) = Cert.Spec.src (X1 m c) := by
  simp (disch := decide) only [W3, W2, W1, W0, hostOps0, hostOps0_1, hostOps0_2, TRef.unary, TRef.ternary, after_cons, after_nil, nullary_result', unary_result', binary_result', ternary_result', reshape_result', nullary_result_ne', unary_result_ne', binary_result_ne', ternary_result_ne', reshape_result_ne'] <;> rfl
theorem at3_v6 : W3 m ρ c (Proc.devRef .tc main_v6) = Cert.Spec.dst (X1 m c) := by
  simp (disch := decide) only [W3, W2, W1, W0, hostOps0, hostOps0_1, hostOps0_2, TRef.unary, TRef.ternary, after_cons, after_nil, nullary_result', unary_result', binary_result', ternary_result', reshape_result', nullary_result_ne', unary_result_ne', binary_result_ne', ternary_result_ne', reshape_result_ne'] <;> rfl
theorem at3_arg4 : W3 m ρ c (Proc.devRef .tc main_arg4) = X4 m c := by
  simp (disch := decide) only [W3, W2, W1, W0, hostOps0, hostOps0_1, hostOps0_2, TRef.unary, TRef.ternary, after_cons, after_nil, nullary_result', unary_result', binary_result', ternary_result', reshape_result', nullary_result_ne', unary_result_ne', binary_result_ne', ternary_result_ne', reshape_result_ne'] <;> rfl
theorem at3_arg5 : W3 m ρ c (Proc.devRef .tc main_arg5) = X5 m c := by
  simp (disch := decide) only [W3, W2, W1, W0, hostOps0, hostOps0_1, hostOps0_2, TRef.unary, TRef.ternary, after_cons, after_nil, nullary_result', unary_result', binary_result', ternary_result', reshape_result', nullary_result_ne', unary_result_ne', binary_result_ne', ternary_result_ne', reshape_result_ne'] <;> rfl
theorem at3_arg6 : W3 m ρ c (Proc.devRef .tc main_arg6) = X6 m c := by
  simp (disch := decide) only [W3, W2, W1, W0, hostOps0, hostOps0_1, hostOps0_2, TRef.unary, TRef.ternary, after_cons, after_nil, nullary_result', unary_result', binary_result', ternary_result', reshape_result', nullary_result_ne', unary_result_ne', binary_result_ne', ternary_result_ne', reshape_result_ne'] <;> rfl
theorem at3_arg7 : W3 m ρ c (Proc.devRef .tc main_arg7) = X7 m c := by
  simp (disch := decide) only [W3, W2, W1, W0, hostOps0, hostOps0_1, hostOps0_2, TRef.unary, TRef.ternary, after_cons, after_nil, nullary_result', unary_result', binary_result', ternary_result', reshape_result', nullary_result_ne', unary_result_ne', binary_result_ne', ternary_result_ne', reshape_result_ne'] <;> rfl
theorem at3_arg8 : W3 m ρ c (Proc.devRef .tc main_arg8) = X8 m c := by
  simp (disch := decide) only [W3, W2, W1, W0, hostOps0, hostOps0_1, hostOps0_2, TRef.unary, TRef.ternary, after_cons, after_nil, nullary_result', unary_result', binary_result', ternary_result', reshape_result', nullary_result_ne', unary_result_ne', binary_result_ne', ternary_result_ne', reshape_result_ne'] <;> rfl
theorem at3_arg2 : W3 m ρ c (Proc.devRef .tc main_arg2) = X2 m c := by
  simp (disch := decide) only [W3, W2, W1, W0, hostOps0, hostOps0_1, hostOps0_2, TRef.unary, TRef.ternary, after_cons, after_nil, nullary_result', unary_result', binary_result', ternary_result', reshape_result', nullary_result_ne', unary_result_ne', binary_result_ne', ternary_result_ne', reshape_result_ne'] <;> rfl
theorem at3_arg9 : W3 m ρ c (Proc.devRef .tc main_arg9) = X9 m c := by
  simp (disch := decide) only [W3, W2, W1, W0, hostOps0, hostOps0_1, hostOps0_2, TRef.unary, TRef.ternary, after_cons, after_nil, nullary_result', unary_result', binary_result', ternary_result', reshape_result', nullary_result_ne', unary_result_ne', binary_result_ne', ternary_result_ne', reshape_result_ne'] <;> rfl
theorem at3_arg10 : W3 m ρ c (Proc.devRef .tc main_arg10) = X10 m c := by
  simp (disch := decide) only [W3, W2, W1, W0, hostOps0, hostOps0_1, hostOps0_2, TRef.unary, TRef.ternary, after_cons, after_nil, nullary_result', unary_result', binary_result', ternary_result', reshape_result', nullary_result_ne', unary_result_ne', binary_result_ne', ternary_result_ne', reshape_result_ne'] <;> rfl

/-! ## Every kernel leaves every buffer but its output as it found it; a host stretch, every buffer it does not write -/

theorem r4_v3 : W4 m ρ c (Proc.devRef .tc main_v3) = Cert.Spec.src (X1 m c) :=
  (W4_of_ne m ρ c main_v3 (by decide)).trans (at3_v3 m ρ c)
theorem r4_v6 : W4 m ρ c (Proc.devRef .tc main_v6) = Cert.Spec.dst (X1 m c) :=
  (W4_of_ne m ρ c main_v6 (by decide)).trans (at3_v6 m ρ c)
theorem r4_v32 : W4 m ρ c (Proc.devRef .tc main_v32) = Cert.Spec.norm (F := Ideal) (X1 m c) :=
  (W4_of_ne m ρ c main_v32 (by decide)).trans (at3_v32 m ρ c)
theorem r4_arg4 : W4 m ρ c (Proc.devRef .tc main_arg4) = X4 m c :=
  (W4_of_ne m ρ c main_arg4 (by decide)).trans (at3_arg4 m ρ c)
theorem r4_arg5 : W4 m ρ c (Proc.devRef .tc main_arg5) = X5 m c :=
  (W4_of_ne m ρ c main_arg5 (by decide)).trans (at3_arg5 m ρ c)
theorem r4_arg6 : W4 m ρ c (Proc.devRef .tc main_arg6) = X6 m c :=
  (W4_of_ne m ρ c main_arg6 (by decide)).trans (at3_arg6 m ρ c)
theorem r4_arg7 : W4 m ρ c (Proc.devRef .tc main_arg7) = X7 m c :=
  (W4_of_ne m ρ c main_arg7 (by decide)).trans (at3_arg7 m ρ c)
theorem r4_arg8 : W4 m ρ c (Proc.devRef .tc main_arg8) = X8 m c :=
  (W4_of_ne m ρ c main_arg8 (by decide)).trans (at3_arg8 m ρ c)
theorem r4_arg2 : W4 m ρ c (Proc.devRef .tc main_arg2) = X2 m c :=
  (W4_of_ne m ρ c main_arg2 (by decide)).trans (at3_arg2 m ρ c)
theorem r4_arg9 : W4 m ρ c (Proc.devRef .tc main_arg9) = X9 m c :=
  (W4_of_ne m ρ c main_arg9 (by decide)).trans (at3_arg9 m ρ c)
theorem r4_arg10 : W4 m ρ c (Proc.devRef .tc main_arg10) = X10 m c :=
  (W4_of_ne m ρ c main_arg10 (by decide)).trans (at3_arg10 m ρ c)
theorem r6_v3 : W6 m ρ c (Proc.devRef .tc main_v3) = Cert.Spec.src (X1 m c) :=
  (W6_of_ne m ρ c main_v3 (by decide)).trans (by
    show after hostOps1 (W4 m ρ c) (Proc.devRef .tc main_v3) = _
    simp (disch := decide) only [hostOps1, after_cons, after_nil, nullary_result', unary_result', binary_result', ternary_result', reshape_result', nullary_result_ne', unary_result_ne', binary_result_ne', ternary_result_ne', reshape_result_ne']
    exact r4_v3 m ρ c)
theorem r6_v6 : W6 m ρ c (Proc.devRef .tc main_v6) = Cert.Spec.dst (X1 m c) :=
  (W6_of_ne m ρ c main_v6 (by decide)).trans (by
    show after hostOps1 (W4 m ρ c) (Proc.devRef .tc main_v6) = _
    simp (disch := decide) only [hostOps1, after_cons, after_nil, nullary_result', unary_result', binary_result', ternary_result', reshape_result', nullary_result_ne', unary_result_ne', binary_result_ne', ternary_result_ne', reshape_result_ne']
    exact r4_v6 m ρ c)
theorem r6_v32 : W6 m ρ c (Proc.devRef .tc main_v32) = Cert.Spec.norm (F := Ideal) (X1 m c) :=
  (pass6_v32 m ρ c).trans (by
    show after hostOps1 (W4 m ρ c) (Proc.devRef .tc main_v32) = _
    simp (disch := decide) only [hostOps1, after_cons, after_nil, nullary_result', unary_result', binary_result', ternary_result', reshape_result', nullary_result_ne', unary_result_ne', binary_result_ne', ternary_result_ne', reshape_result_ne']
    exact r4_v32 m ρ c)
theorem r6_arg4 : W6 m ρ c (Proc.devRef .tc main_arg4) = X4 m c :=
  (W6_of_ne m ρ c main_arg4 (by decide)).trans (by
    show after hostOps1 (W4 m ρ c) (Proc.devRef .tc main_arg4) = _
    simp (disch := decide) only [hostOps1, after_cons, after_nil, nullary_result', unary_result', binary_result', ternary_result', reshape_result', nullary_result_ne', unary_result_ne', binary_result_ne', ternary_result_ne', reshape_result_ne']
    exact r4_arg4 m ρ c)
theorem r6_arg5 : W6 m ρ c (Proc.devRef .tc main_arg5) = X5 m c :=
  (W6_of_ne m ρ c main_arg5 (by decide)).trans (by
    show after hostOps1 (W4 m ρ c) (Proc.devRef .tc main_arg5) = _
    simp (disch := decide) only [hostOps1, after_cons, after_nil, nullary_result', unary_result', binary_result', ternary_result', reshape_result', nullary_result_ne', unary_result_ne', binary_result_ne', ternary_result_ne', reshape_result_ne']
    exact r4_arg5 m ρ c)
theorem r6_arg6 : W6 m ρ c (Proc.devRef .tc main_arg6) = X6 m c :=
  (W6_of_ne m ρ c main_arg6 (by decide)).trans (by
    show after hostOps1 (W4 m ρ c) (Proc.devRef .tc main_arg6) = _
    simp (disch := decide) only [hostOps1, after_cons, after_nil, nullary_result', unary_result', binary_result', ternary_result', reshape_result', nullary_result_ne', unary_result_ne', binary_result_ne', ternary_result_ne', reshape_result_ne']
    exact r4_arg6 m ρ c)
theorem r6_arg7 : W6 m ρ c (Proc.devRef .tc main_arg7) = X7 m c :=
  (W6_of_ne m ρ c main_arg7 (by decide)).trans (by
    show after hostOps1 (W4 m ρ c) (Proc.devRef .tc main_arg7) = _
    simp (disch := decide) only [hostOps1, after_cons, after_nil, nullary_result', unary_result', binary_result', ternary_result', reshape_result', nullary_result_ne', unary_result_ne', binary_result_ne', ternary_result_ne', reshape_result_ne']
    exact r4_arg7 m ρ c)
theorem r6_arg8 : W6 m ρ c (Proc.devRef .tc main_arg8) = X8 m c :=
  (W6_of_ne m ρ c main_arg8 (by decide)).trans (by
    show after hostOps1 (W4 m ρ c) (Proc.devRef .tc main_arg8) = _
    simp (disch := decide) only [hostOps1, after_cons, after_nil, nullary_result', unary_result', binary_result', ternary_result', reshape_result', nullary_result_ne', unary_result_ne', binary_result_ne', ternary_result_ne', reshape_result_ne']
    exact r4_arg8 m ρ c)
theorem r6_arg2 : W6 m ρ c (Proc.devRef .tc main_arg2) = X2 m c :=
  (W6_of_ne m ρ c main_arg2 (by decide)).trans (by
    show after hostOps1 (W4 m ρ c) (Proc.devRef .tc main_arg2) = _
    simp (disch := decide) only [hostOps1, after_cons, after_nil, nullary_result', unary_result', binary_result', ternary_result', reshape_result', nullary_result_ne', unary_result_ne', binary_result_ne', ternary_result_ne', reshape_result_ne']
    exact r4_arg2 m ρ c)
theorem r6_arg9 : W6 m ρ c (Proc.devRef .tc main_arg9) = X9 m c :=
  (W6_of_ne m ρ c main_arg9 (by decide)).trans (by
    show after hostOps1 (W4 m ρ c) (Proc.devRef .tc main_arg9) = _
    simp (disch := decide) only [hostOps1, after_cons, after_nil, nullary_result', unary_result', binary_result', ternary_result', reshape_result', nullary_result_ne', unary_result_ne', binary_result_ne', ternary_result_ne', reshape_result_ne']
    exact r4_arg9 m ρ c)
theorem r6_arg10 : W6 m ρ c (Proc.devRef .tc main_arg10) = X10 m c :=
  (W6_of_ne m ρ c main_arg10 (by decide)).trans (by
    show after hostOps1 (W4 m ρ c) (Proc.devRef .tc main_arg10) = _
    simp (disch := decide) only [hostOps1, after_cons, after_nil, nullary_result', unary_result', binary_result', ternary_result', reshape_result', nullary_result_ne', unary_result_ne', binary_result_ne', ternary_result_ne', reshape_result_ne']
    exact r4_arg10 m ρ c)
theorem r8_v3 : W8 m ρ c (Proc.devRef .tc main_v3) = Cert.Spec.src (X1 m c) :=
  (W8_of_ne m ρ c main_v3 (by decide)).trans (by
    show after hostOps2 (W6 m ρ c) (Proc.devRef .tc main_v3) = _
    simp (disch := decide) only [hostOps2, after_cons, after_nil, nullary_result', unary_result', binary_result', ternary_result', reshape_result', nullary_result_ne', unary_result_ne', binary_result_ne', ternary_result_ne', reshape_result_ne']
    exact r6_v3 m ρ c)
theorem r8_v6 : W8 m ρ c (Proc.devRef .tc main_v6) = Cert.Spec.dst (X1 m c) :=
  (W8_of_ne m ρ c main_v6 (by decide)).trans (by
    show after hostOps2 (W6 m ρ c) (Proc.devRef .tc main_v6) = _
    simp (disch := decide) only [hostOps2, after_cons, after_nil, nullary_result', unary_result', binary_result', ternary_result', reshape_result', nullary_result_ne', unary_result_ne', binary_result_ne', ternary_result_ne', reshape_result_ne']
    exact r6_v6 m ρ c)
theorem r8_v32 : W8 m ρ c (Proc.devRef .tc main_v32) = Cert.Spec.norm (F := Ideal) (X1 m c) :=
  (W8_of_ne m ρ c main_v32 (by decide)).trans (by
    show after hostOps2 (W6 m ρ c) (Proc.devRef .tc main_v32) = _
    simp (disch := decide) only [hostOps2, after_cons, after_nil, nullary_result', unary_result', binary_result', ternary_result', reshape_result', nullary_result_ne', unary_result_ne', binary_result_ne', ternary_result_ne', reshape_result_ne']
    exact r6_v32 m ρ c)
theorem r8_arg5 : W8 m ρ c (Proc.devRef .tc main_arg5) = X5 m c :=
  (W8_of_ne m ρ c main_arg5 (by decide)).trans (by
    show after hostOps2 (W6 m ρ c) (Proc.devRef .tc main_arg5) = _
    simp (disch := decide) only [hostOps2, after_cons, after_nil, nullary_result', unary_result', binary_result', ternary_result', reshape_result', nullary_result_ne', unary_result_ne', binary_result_ne', ternary_result_ne', reshape_result_ne']
    exact r6_arg5 m ρ c)
theorem r8_arg6 : W8 m ρ c (Proc.devRef .tc main_arg6) = X6 m c :=
  (W8_of_ne m ρ c main_arg6 (by decide)).trans (by
    show after hostOps2 (W6 m ρ c) (Proc.devRef .tc main_arg6) = _
    simp (disch := decide) only [hostOps2, after_cons, after_nil, nullary_result', unary_result', binary_result', ternary_result', reshape_result', nullary_result_ne', unary_result_ne', binary_result_ne', ternary_result_ne', reshape_result_ne']
    exact r6_arg6 m ρ c)
theorem r8_arg7 : W8 m ρ c (Proc.devRef .tc main_arg7) = X7 m c :=
  (W8_of_ne m ρ c main_arg7 (by decide)).trans (by
    show after hostOps2 (W6 m ρ c) (Proc.devRef .tc main_arg7) = _
    simp (disch := decide) only [hostOps2, after_cons, after_nil, nullary_result', unary_result', binary_result', ternary_result', reshape_result', nullary_result_ne', unary_result_ne', binary_result_ne', ternary_result_ne', reshape_result_ne']
    exact r6_arg7 m ρ c)
theorem r8_arg8 : W8 m ρ c (Proc.devRef .tc main_arg8) = X8 m c :=
  (W8_of_ne m ρ c main_arg8 (by decide)).trans (by
    show after hostOps2 (W6 m ρ c) (Proc.devRef .tc main_arg8) = _
    simp (disch := decide) only [hostOps2, after_cons, after_nil, nullary_result', unary_result', binary_result', ternary_result', reshape_result', nullary_result_ne', unary_result_ne', binary_result_ne', ternary_result_ne', reshape_result_ne']
    exact r6_arg8 m ρ c)
theorem r8_arg2 : W8 m ρ c (Proc.devRef .tc main_arg2) = X2 m c :=
  (W8_of_ne m ρ c main_arg2 (by decide)).trans (by
    show after hostOps2 (W6 m ρ c) (Proc.devRef .tc main_arg2) = _
    simp (disch := decide) only [hostOps2, after_cons, after_nil, nullary_result', unary_result', binary_result', ternary_result', reshape_result', nullary_result_ne', unary_result_ne', binary_result_ne', ternary_result_ne', reshape_result_ne']
    exact r6_arg2 m ρ c)
theorem r8_arg9 : W8 m ρ c (Proc.devRef .tc main_arg9) = X9 m c :=
  (W8_of_ne m ρ c main_arg9 (by decide)).trans (by
    show after hostOps2 (W6 m ρ c) (Proc.devRef .tc main_arg9) = _
    simp (disch := decide) only [hostOps2, after_cons, after_nil, nullary_result', unary_result', binary_result', ternary_result', reshape_result', nullary_result_ne', unary_result_ne', binary_result_ne', ternary_result_ne', reshape_result_ne']
    exact r6_arg9 m ρ c)
theorem r8_arg10 : W8 m ρ c (Proc.devRef .tc main_arg10) = X10 m c :=
  (W8_of_ne m ρ c main_arg10 (by decide)).trans (by
    show after hostOps2 (W6 m ρ c) (Proc.devRef .tc main_arg10) = _
    simp (disch := decide) only [hostOps2, after_cons, after_nil, nullary_result', unary_result', binary_result', ternary_result', reshape_result', nullary_result_ne', unary_result_ne', binary_result_ne', ternary_result_ne', reshape_result_ne']
    exact r6_arg10 m ρ c)
theorem r9_v3 : W9 m ρ c (Proc.devRef .tc main_v3) = Cert.Spec.src (X1 m c) :=
  (W9_of_ne m ρ c main_v3 (by decide)).trans (r8_v3 m ρ c)
theorem r9_v6 : W9 m ρ c (Proc.devRef .tc main_v6) = Cert.Spec.dst (X1 m c) :=
  (W9_of_ne m ρ c main_v6 (by decide)).trans (r8_v6 m ρ c)
theorem r9_v32 : W9 m ρ c (Proc.devRef .tc main_v32) = Cert.Spec.norm (F := Ideal) (X1 m c) :=
  (W9_of_ne m ρ c main_v32 (by decide)).trans (r8_v32 m ρ c)
theorem r9_arg6 : W9 m ρ c (Proc.devRef .tc main_arg6) = X6 m c :=
  (W9_of_ne m ρ c main_arg6 (by decide)).trans (r8_arg6 m ρ c)
theorem r9_arg7 : W9 m ρ c (Proc.devRef .tc main_arg7) = X7 m c :=
  (W9_of_ne m ρ c main_arg7 (by decide)).trans (r8_arg7 m ρ c)
theorem r9_arg8 : W9 m ρ c (Proc.devRef .tc main_arg8) = X8 m c :=
  (W9_of_ne m ρ c main_arg8 (by decide)).trans (r8_arg8 m ρ c)
theorem r9_arg2 : W9 m ρ c (Proc.devRef .tc main_arg2) = X2 m c :=
  (W9_of_ne m ρ c main_arg2 (by decide)).trans (r8_arg2 m ρ c)
theorem r9_arg9 : W9 m ρ c (Proc.devRef .tc main_arg9) = X9 m c :=
  (W9_of_ne m ρ c main_arg9 (by decide)).trans (r8_arg9 m ρ c)
theorem r9_arg10 : W9 m ρ c (Proc.devRef .tc main_arg10) = X10 m c :=
  (W9_of_ne m ρ c main_arg10 (by decide)).trans (r8_arg10 m ρ c)
theorem r11_v3 : W11 m ρ c (Proc.devRef .tc main_v3) = Cert.Spec.src (X1 m c) :=
  (W11_of_ne m ρ c main_v3 (by decide)).trans (by
    show after hostOps4 (W9 m ρ c) (Proc.devRef .tc main_v3) = _
    simp (disch := decide) only [hostOps4, after_cons, after_nil, nullary_result', unary_result', binary_result', ternary_result', reshape_result', nullary_result_ne', unary_result_ne', binary_result_ne', ternary_result_ne', reshape_result_ne']
    exact r9_v3 m ρ c)
theorem r11_v6 : W11 m ρ c (Proc.devRef .tc main_v6) = Cert.Spec.dst (X1 m c) :=
  (W11_of_ne m ρ c main_v6 (by decide)).trans (by
    show after hostOps4 (W9 m ρ c) (Proc.devRef .tc main_v6) = _
    simp (disch := decide) only [hostOps4, after_cons, after_nil, nullary_result', unary_result', binary_result', ternary_result', reshape_result', nullary_result_ne', unary_result_ne', binary_result_ne', ternary_result_ne', reshape_result_ne']
    exact r9_v6 m ρ c)
theorem r11_v32 : W11 m ρ c (Proc.devRef .tc main_v32) = Cert.Spec.norm (F := Ideal) (X1 m c) :=
  (pass11_v32 m ρ c).trans (by
    show after hostOps4 (W9 m ρ c) (Proc.devRef .tc main_v32) = _
    simp (disch := decide) only [hostOps4, after_cons, after_nil, nullary_result', unary_result', binary_result', ternary_result', reshape_result', nullary_result_ne', unary_result_ne', binary_result_ne', ternary_result_ne', reshape_result_ne']
    exact r9_v32 m ρ c)
theorem r11_arg6 : W11 m ρ c (Proc.devRef .tc main_arg6) = X6 m c :=
  (W11_of_ne m ρ c main_arg6 (by decide)).trans (by
    show after hostOps4 (W9 m ρ c) (Proc.devRef .tc main_arg6) = _
    simp (disch := decide) only [hostOps4, after_cons, after_nil, nullary_result', unary_result', binary_result', ternary_result', reshape_result', nullary_result_ne', unary_result_ne', binary_result_ne', ternary_result_ne', reshape_result_ne']
    exact r9_arg6 m ρ c)
theorem r11_arg7 : W11 m ρ c (Proc.devRef .tc main_arg7) = X7 m c :=
  (W11_of_ne m ρ c main_arg7 (by decide)).trans (by
    show after hostOps4 (W9 m ρ c) (Proc.devRef .tc main_arg7) = _
    simp (disch := decide) only [hostOps4, after_cons, after_nil, nullary_result', unary_result', binary_result', ternary_result', reshape_result', nullary_result_ne', unary_result_ne', binary_result_ne', ternary_result_ne', reshape_result_ne']
    exact r9_arg7 m ρ c)
theorem r11_arg8 : W11 m ρ c (Proc.devRef .tc main_arg8) = X8 m c :=
  (W11_of_ne m ρ c main_arg8 (by decide)).trans (by
    show after hostOps4 (W9 m ρ c) (Proc.devRef .tc main_arg8) = _
    simp (disch := decide) only [hostOps4, after_cons, after_nil, nullary_result', unary_result', binary_result', ternary_result', reshape_result', nullary_result_ne', unary_result_ne', binary_result_ne', ternary_result_ne', reshape_result_ne']
    exact r9_arg8 m ρ c)
theorem r11_arg2 : W11 m ρ c (Proc.devRef .tc main_arg2) = X2 m c :=
  (W11_of_ne m ρ c main_arg2 (by decide)).trans (by
    show after hostOps4 (W9 m ρ c) (Proc.devRef .tc main_arg2) = _
    simp (disch := decide) only [hostOps4, after_cons, after_nil, nullary_result', unary_result', binary_result', ternary_result', reshape_result', nullary_result_ne', unary_result_ne', binary_result_ne', ternary_result_ne', reshape_result_ne']
    exact r9_arg2 m ρ c)
theorem r11_arg9 : W11 m ρ c (Proc.devRef .tc main_arg9) = X9 m c :=
  (W11_of_ne m ρ c main_arg9 (by decide)).trans (by
    show after hostOps4 (W9 m ρ c) (Proc.devRef .tc main_arg9) = _
    simp (disch := decide) only [hostOps4, after_cons, after_nil, nullary_result', unary_result', binary_result', ternary_result', reshape_result', nullary_result_ne', unary_result_ne', binary_result_ne', ternary_result_ne', reshape_result_ne']
    exact r9_arg9 m ρ c)
theorem r11_arg10 : W11 m ρ c (Proc.devRef .tc main_arg10) = X10 m c :=
  (W11_of_ne m ρ c main_arg10 (by decide)).trans (by
    show after hostOps4 (W9 m ρ c) (Proc.devRef .tc main_arg10) = _
    simp (disch := decide) only [hostOps4, after_cons, after_nil, nullary_result', unary_result', binary_result', ternary_result', reshape_result', nullary_result_ne', unary_result_ne', binary_result_ne', ternary_result_ne', reshape_result_ne']
    exact r9_arg10 m ρ c)
theorem r13_v3 : W13 m ρ c (Proc.devRef .tc main_v3) = Cert.Spec.src (X1 m c) :=
  (W13_of_ne m ρ c main_v3 (by decide)).trans (by
    show after hostOps5 (W11 m ρ c) (Proc.devRef .tc main_v3) = _
    simp (disch := decide) only [hostOps5, after_cons, after_nil, nullary_result', unary_result', binary_result', ternary_result', reshape_result', nullary_result_ne', unary_result_ne', binary_result_ne', ternary_result_ne', reshape_result_ne']
    exact r11_v3 m ρ c)
theorem r13_v6 : W13 m ρ c (Proc.devRef .tc main_v6) = Cert.Spec.dst (X1 m c) :=
  (W13_of_ne m ρ c main_v6 (by decide)).trans (by
    show after hostOps5 (W11 m ρ c) (Proc.devRef .tc main_v6) = _
    simp (disch := decide) only [hostOps5, after_cons, after_nil, nullary_result', unary_result', binary_result', ternary_result', reshape_result', nullary_result_ne', unary_result_ne', binary_result_ne', ternary_result_ne', reshape_result_ne']
    exact r11_v6 m ρ c)
theorem r13_v32 : W13 m ρ c (Proc.devRef .tc main_v32) = Cert.Spec.norm (F := Ideal) (X1 m c) :=
  (W13_of_ne m ρ c main_v32 (by decide)).trans (by
    show after hostOps5 (W11 m ρ c) (Proc.devRef .tc main_v32) = _
    simp (disch := decide) only [hostOps5, after_cons, after_nil, nullary_result', unary_result', binary_result', ternary_result', reshape_result', nullary_result_ne', unary_result_ne', binary_result_ne', ternary_result_ne', reshape_result_ne']
    exact r11_v32 m ρ c)
theorem r13_arg7 : W13 m ρ c (Proc.devRef .tc main_arg7) = X7 m c :=
  (W13_of_ne m ρ c main_arg7 (by decide)).trans (by
    show after hostOps5 (W11 m ρ c) (Proc.devRef .tc main_arg7) = _
    simp (disch := decide) only [hostOps5, after_cons, after_nil, nullary_result', unary_result', binary_result', ternary_result', reshape_result', nullary_result_ne', unary_result_ne', binary_result_ne', ternary_result_ne', reshape_result_ne']
    exact r11_arg7 m ρ c)
theorem r13_arg8 : W13 m ρ c (Proc.devRef .tc main_arg8) = X8 m c :=
  (W13_of_ne m ρ c main_arg8 (by decide)).trans (by
    show after hostOps5 (W11 m ρ c) (Proc.devRef .tc main_arg8) = _
    simp (disch := decide) only [hostOps5, after_cons, after_nil, nullary_result', unary_result', binary_result', ternary_result', reshape_result', nullary_result_ne', unary_result_ne', binary_result_ne', ternary_result_ne', reshape_result_ne']
    exact r11_arg8 m ρ c)
theorem r13_arg2 : W13 m ρ c (Proc.devRef .tc main_arg2) = X2 m c :=
  (W13_of_ne m ρ c main_arg2 (by decide)).trans (by
    show after hostOps5 (W11 m ρ c) (Proc.devRef .tc main_arg2) = _
    simp (disch := decide) only [hostOps5, after_cons, after_nil, nullary_result', unary_result', binary_result', ternary_result', reshape_result', nullary_result_ne', unary_result_ne', binary_result_ne', ternary_result_ne', reshape_result_ne']
    exact r11_arg2 m ρ c)
theorem r13_arg9 : W13 m ρ c (Proc.devRef .tc main_arg9) = X9 m c :=
  (W13_of_ne m ρ c main_arg9 (by decide)).trans (by
    show after hostOps5 (W11 m ρ c) (Proc.devRef .tc main_arg9) = _
    simp (disch := decide) only [hostOps5, after_cons, after_nil, nullary_result', unary_result', binary_result', ternary_result', reshape_result', nullary_result_ne', unary_result_ne', binary_result_ne', ternary_result_ne', reshape_result_ne']
    exact r11_arg9 m ρ c)
theorem r13_arg10 : W13 m ρ c (Proc.devRef .tc main_arg10) = X10 m c :=
  (W13_of_ne m ρ c main_arg10 (by decide)).trans (by
    show after hostOps5 (W11 m ρ c) (Proc.devRef .tc main_arg10) = _
    simp (disch := decide) only [hostOps5, after_cons, after_nil, nullary_result', unary_result', binary_result', ternary_result', reshape_result', nullary_result_ne', unary_result_ne', binary_result_ne', ternary_result_ne', reshape_result_ne']
    exact r11_arg10 m ρ c)
theorem r14_v3 : W14 m ρ c (Proc.devRef .tc main_v3) = Cert.Spec.src (X1 m c) :=
  (W14_of_ne m ρ c main_v3 (by decide)).trans (r13_v3 m ρ c)
theorem r14_v6 : W14 m ρ c (Proc.devRef .tc main_v6) = Cert.Spec.dst (X1 m c) :=
  (W14_of_ne m ρ c main_v6 (by decide)).trans (r13_v6 m ρ c)
theorem r14_v32 : W14 m ρ c (Proc.devRef .tc main_v32) = Cert.Spec.norm (F := Ideal) (X1 m c) :=
  (W14_of_ne m ρ c main_v32 (by decide)).trans (r13_v32 m ρ c)
theorem r14_arg8 : W14 m ρ c (Proc.devRef .tc main_arg8) = X8 m c :=
  (W14_of_ne m ρ c main_arg8 (by decide)).trans (r13_arg8 m ρ c)
theorem r14_arg2 : W14 m ρ c (Proc.devRef .tc main_arg2) = X2 m c :=
  (W14_of_ne m ρ c main_arg2 (by decide)).trans (r13_arg2 m ρ c)
theorem r14_arg9 : W14 m ρ c (Proc.devRef .tc main_arg9) = X9 m c :=
  (W14_of_ne m ρ c main_arg9 (by decide)).trans (r13_arg9 m ρ c)
theorem r14_arg10 : W14 m ρ c (Proc.devRef .tc main_arg10) = X10 m c :=
  (W14_of_ne m ρ c main_arg10 (by decide)).trans (r13_arg10 m ρ c)
theorem r16_v6 : W16 m ρ c (Proc.devRef .tc main_v6) = Cert.Spec.dst (X1 m c) :=
  (W16_of_ne m ρ c main_v6 (by decide)).trans (by
    show after hostOps7 (W14 m ρ c) (Proc.devRef .tc main_v6) = _
    simp (disch := decide) only [hostOps7, after_cons, after_nil, nullary_result', unary_result', binary_result', ternary_result', reshape_result', nullary_result_ne', unary_result_ne', binary_result_ne', ternary_result_ne', reshape_result_ne']
    exact r14_v6 m ρ c)
theorem r16_arg8 : W16 m ρ c (Proc.devRef .tc main_arg8) = X8 m c :=
  (W16_of_ne m ρ c main_arg8 (by decide)).trans (by
    show after hostOps7 (W14 m ρ c) (Proc.devRef .tc main_arg8) = _
    simp (disch := decide) only [hostOps7, after_cons, after_nil, nullary_result', unary_result', binary_result', ternary_result', reshape_result', nullary_result_ne', unary_result_ne', binary_result_ne', ternary_result_ne', reshape_result_ne']
    exact r14_arg8 m ρ c)
theorem r16_arg2 : W16 m ρ c (Proc.devRef .tc main_arg2) = X2 m c :=
  (W16_of_ne m ρ c main_arg2 (by decide)).trans (by
    show after hostOps7 (W14 m ρ c) (Proc.devRef .tc main_arg2) = _
    simp (disch := decide) only [hostOps7, after_cons, after_nil, nullary_result', unary_result', binary_result', ternary_result', reshape_result', nullary_result_ne', unary_result_ne', binary_result_ne', ternary_result_ne', reshape_result_ne']
    exact r14_arg2 m ρ c)
theorem r16_arg9 : W16 m ρ c (Proc.devRef .tc main_arg9) = X9 m c :=
  (W16_of_ne m ρ c main_arg9 (by decide)).trans (by
    show after hostOps7 (W14 m ρ c) (Proc.devRef .tc main_arg9) = _
    simp (disch := decide) only [hostOps7, after_cons, after_nil, nullary_result', unary_result', binary_result', ternary_result', reshape_result', nullary_result_ne', unary_result_ne', binary_result_ne', ternary_result_ne', reshape_result_ne']
    exact r14_arg9 m ρ c)
theorem r16_arg10 : W16 m ρ c (Proc.devRef .tc main_arg10) = X10 m c :=
  (W16_of_ne m ρ c main_arg10 (by decide)).trans (by
    show after hostOps7 (W14 m ρ c) (Proc.devRef .tc main_arg10) = _
    simp (disch := decide) only [hostOps7, after_cons, after_nil, nullary_result', unary_result', binary_result', ternary_result', reshape_result', nullary_result_ne', unary_result_ne', binary_result_ne', ternary_result_ne', reshape_result_ne']
    exact r14_arg10 m ρ c)
theorem r18_arg2 : W18 m ρ c (Proc.devRef .tc main_arg2) = X2 m c :=
  (W18_of_ne m ρ c main_arg2 (by decide)).trans (by
    show after hostOps8 (W16 m ρ c) (Proc.devRef .tc main_arg2) = _
    simp (disch := decide) only [hostOps8, after_cons, after_nil, nullary_result', unary_result', binary_result', ternary_result', reshape_result', nullary_result_ne', unary_result_ne', binary_result_ne', ternary_result_ne', reshape_result_ne']
    exact r16_arg2 m ρ c)
theorem r18_arg9 : W18 m ρ c (Proc.devRef .tc main_arg9) = X9 m c :=
  (W18_of_ne m ρ c main_arg9 (by decide)).trans (by
    show after hostOps8 (W16 m ρ c) (Proc.devRef .tc main_arg9) = _
    simp (disch := decide) only [hostOps8, after_cons, after_nil, nullary_result', unary_result', binary_result', ternary_result', reshape_result', nullary_result_ne', unary_result_ne', binary_result_ne', ternary_result_ne', reshape_result_ne']
    exact r16_arg9 m ρ c)
theorem r18_arg10 : W18 m ρ c (Proc.devRef .tc main_arg10) = X10 m c :=
  (W18_of_ne m ρ c main_arg10 (by decide)).trans (by
    show after hostOps8 (W16 m ρ c) (Proc.devRef .tc main_arg10) = _
    simp (disch := decide) only [hostOps8, after_cons, after_nil, nullary_result', unary_result', binary_result', ternary_result', reshape_result', nullary_result_ne', unary_result_ne', binary_result_ne', ternary_result_ne', reshape_result_ne']
    exact r16_arg10 m ρ c)

/-! ## Layer 1 -/

/-- After the first matrix-product kernel: x · W1. -/
theorem at4_v33 : W4 m ρ c (Proc.devRef .tc main_v33) = HW1 m c :=
  (W4_arr m ρ c 2).trans (Cert.KernelIdeal.Matmul0.arr (V3 m ρ) c (X0 m c) (X3 m c) (at3_arg0 m ρ c) (at3_arg3 m ρ c))
/-- Its rows gathered along `src`. -/
theorem at5_v40 : W5 m ρ c (Proc.devRef .tc main_v40)
    = Host.gather Cert.ReferenceIdeal.gather_S100000x128_S1700000x1_S1700000x128_1_0_n_n_0_1_1128 (HW1 m c) (Cert.Spec.gidx (X1 m c)) := by
  show after hostOps1 (W4 m ρ c) (Proc.devRef .tc main_v40) = _
  simp (disch := decide) only [hostOps1, after_cons, after_nil, nullary_result', unary_result', binary_result', ternary_result', reshape_result', nullary_result_ne', unary_result_ne', binary_result_ne', ternary_result_ne', reshape_result_ne']
  rw [at4_v33 m ρ c, r4_v3 m ρ c]
  rfl
theorem at5_v32 : W5 m ρ c (Proc.devRef .tc main_v32)
    = Cert.Spec.norm (F := Ideal) (X1 m c) := by
  show after hostOps1 (W4 m ρ c) (Proc.devRef .tc main_v32) = _
  simp (disch := decide) only [hostOps1, after_cons, after_nil, nullary_result', unary_result', binary_result', ternary_result', reshape_result', nullary_result_ne', unary_result_ne', binary_result_ne', ternary_result_ne', reshape_result_ne']
  exact r4_v32 m ρ c
/-- After the first scaling kernel: the scaled messages. -/
theorem at6_v41 : W6 m ρ c (Proc.devRef .tc main_v41) = Cert.Spec.msgs (HW1 m c) (X1 m c) :=
  (W6_arr m ρ c 2).trans (Cert.KernelIdeal.Scale1.arr (V5 m ρ) c _ _ (at5_v40 m ρ c) (at5_v32 m ρ c))
/-- The messages summed into their destination nodes. -/
theorem at7_v44 : W7 m ρ c (Proc.devRef .tc main_v44)
    = Cert.Spec.prop (HW1 m c) (X1 m c) := by
  show after hostOps2 (W6 m ρ c) (Proc.devRef .tc main_v44) = _
  simp (disch := decide) only [hostOps2, after_cons, after_nil, nullary_result', unary_result', binary_result', ternary_result', reshape_result', nullary_result_ne', unary_result_ne', binary_result_ne', ternary_result_ne', reshape_result_ne']
  rw [at6_v41 m ρ c, r6_v6 m ρ c]
  rfl
/-- The bias vector as a one-row array: a reshape of a vector to one row is its broadcast along the new axis. -/
theorem at7_v45 : W7 m ρ c (Proc.devRef .tc main_v45)
    = broadcastInDim Cert.ReferenceIdeal.S1x128 ![1] Cert.ReferenceIdeal.Facts₀.bcast_S128_S1x128_1 (X4 m c) := by
  show after hostOps2 (W6 m ρ c) (Proc.devRef .tc main_v45) = _
  simp (disch := decide) only [hostOps2, after_cons, after_nil, nullary_result', unary_result', binary_result', ternary_result', reshape_result', nullary_result_ne', unary_result_ne', binary_result_ne', ternary_result_ne', reshape_result_ne']
  rw [r6_arg4 m ρ c]
  exact Cert.LibUnitAxes.shapeCast_a_1a_eq_broadcastInDim _ _ _
/-- After the first bias kernel: the first layer's output. -/
theorem at8_v46 : W8 m ρ c (Proc.devRef .tc main_v46) = H1 m c :=
  (W8_arr m ρ c 2).trans (Cert.KernelIdeal.Bias2.arr (V7 m ρ) c _ _ (at7_v44 m ρ c) (at7_v45 m ρ c))

/-! ## Layer 2 -/

theorem at9_v47 : W9 m ρ c (Proc.devRef .tc main_v47) = HW2 m c :=
  (W9_arr m ρ c 2).trans (Cert.KernelIdeal.Matmul3.arr (V8 m ρ) c (H1 m c) (X5 m c) (at8_v46 m ρ c) (r8_arg5 m ρ c))
theorem at10_v54 : W10 m ρ c (Proc.devRef .tc main_v54)
    = Host.gather Cert.ReferenceIdeal.gather_S100000x128_S1700000x1_S1700000x128_1_0_n_n_0_1_1128 (HW2 m c) (Cert.Spec.gidx (X1 m c)) := by
  show after hostOps4 (W9 m ρ c) (Proc.devRef .tc main_v54) = _
  simp (disch := decide) only [hostOps4, after_cons, after_nil, nullary_result', unary_result', binary_result', ternary_result', reshape_result', nullary_result_ne', unary_result_ne', binary_result_ne', ternary_result_ne', reshape_result_ne']
  rw [at9_v47 m ρ c, r9_v3 m ρ c]
  rfl
theorem at10_v32 : W10 m ρ c (Proc.devRef .tc main_v32)
    = Cert.Spec.norm (F := Ideal) (X1 m c) := by
  show after hostOps4 (W9 m ρ c) (Proc.devRef .tc main_v32) = _
  simp (disch := decide) only [hostOps4, after_cons, after_nil, nullary_result', unary_result', binary_result', ternary_result', reshape_result', nullary_result_ne', unary_result_ne', binary_result_ne', ternary_result_ne', reshape_result_ne']
  exact r9_v32 m ρ c
theorem at11_v55 : W11 m ρ c (Proc.devRef .tc main_v55) = Cert.Spec.msgs (HW2 m c) (X1 m c) :=
  (W11_arr m ρ c 2).trans (Cert.KernelIdeal.Scale4.arr (V10 m ρ) c _ _ (at10_v54 m ρ c) (at10_v32 m ρ c))
theorem at12_v58 : W12 m ρ c (Proc.devRef .tc main_v58)
    = Cert.Spec.prop (HW2 m c) (X1 m c) := by
  show after hostOps5 (W11 m ρ c) (Proc.devRef .tc main_v58) = _
  simp (disch := decide) only [hostOps5, after_cons, after_nil, nullary_result', unary_result', binary_result', ternary_result', reshape_result', nullary_result_ne', unary_result_ne', binary_result_ne', ternary_result_ne', reshape_result_ne']
  rw [at11_v55 m ρ c, r11_v6 m ρ c]
  rfl
theorem at12_v59 : W12 m ρ c (Proc.devRef .tc main_v59)
    = broadcastInDim Cert.ReferenceIdeal.S1x128 ![1] Cert.ReferenceIdeal.Facts₀.bcast_S128_S1x128_1 (X6 m c) := by
  show after hostOps5 (W11 m ρ c) (Proc.devRef .tc main_v59) = _
  simp (disch := decide) only [hostOps5, after_cons, after_nil, nullary_result', unary_result', binary_result', ternary_result', reshape_result', nullary_result_ne', unary_result_ne', binary_result_ne', ternary_result_ne', reshape_result_ne']
  rw [r11_arg6 m ρ c]
  exact Cert.LibUnitAxes.shapeCast_a_1a_eq_broadcastInDim _ _ _
theorem at13_v60 : W13 m ρ c (Proc.devRef .tc main_v60) = H2 m c :=
  (W13_arr m ρ c 2).trans (Cert.KernelIdeal.Bias5.arr (V12 m ρ) c _ _ (at12_v58 m ρ c) (at12_v59 m ρ c))

/-! ## Layer 3 -/

theorem at14_v61 : W14 m ρ c (Proc.devRef .tc main_v61) = HW3 m c :=
  (W14_arr m ρ c 2).trans (Cert.KernelIdeal.Matmul6.arr (V13 m ρ) c (H2 m c) (X7 m c) (at13_v60 m ρ c) (r13_arg7 m ρ c))
theorem at15_v68 : W15 m ρ c (Proc.devRef .tc main_v68)
    = Host.gather Cert.ReferenceIdeal.gather_S100000x128_S1700000x1_S1700000x128_1_0_n_n_0_1_1128 (HW3 m c) (Cert.Spec.gidx (X1 m c)) := by
  show after hostOps7 (W14 m ρ c) (Proc.devRef .tc main_v68) = _
  simp (disch := decide) only [hostOps7, after_cons, after_nil, nullary_result', unary_result', binary_result', ternary_result', reshape_result', nullary_result_ne', unary_result_ne', binary_result_ne', ternary_result_ne', reshape_result_ne']
  rw [at14_v61 m ρ c, r14_v3 m ρ c]
  rfl
theorem at15_v32 : W15 m ρ c (Proc.devRef .tc main_v32)
    = Cert.Spec.norm (F := Ideal) (X1 m c) := by
  show after hostOps7 (W14 m ρ c) (Proc.devRef .tc main_v32) = _
  simp (disch := decide) only [hostOps7, after_cons, after_nil, nullary_result', unary_result', binary_result', ternary_result', reshape_result', nullary_result_ne', unary_result_ne', binary_result_ne', ternary_result_ne', reshape_result_ne']
  exact r14_v32 m ρ c
theorem at16_v69 : W16 m ρ c (Proc.devRef .tc main_v69) = Cert.Spec.msgs (HW3 m c) (X1 m c) :=
  (W16_arr m ρ c 2).trans (Cert.KernelIdeal.Scale7.arr (V15 m ρ) c _ _ (at15_v68 m ρ c) (at15_v32 m ρ c))
theorem at17_v72 : W17 m ρ c (Proc.devRef .tc main_v72)
    = Cert.Spec.prop (HW3 m c) (X1 m c) := by
  show after hostOps8 (W16 m ρ c) (Proc.devRef .tc main_v72) = _
  simp (disch := decide) only [hostOps8, after_cons, after_nil, nullary_result', unary_result', binary_result', ternary_result', reshape_result', nullary_result_ne', unary_result_ne', binary_result_ne', ternary_result_ne', reshape_result_ne']
  rw [at16_v69 m ρ c, r16_v6 m ρ c]
  rfl
theorem at17_v73 : W17 m ρ c (Proc.devRef .tc main_v73)
    = broadcastInDim Cert.ReferenceIdeal.S1x128 ![1] Cert.ReferenceIdeal.Facts₀.bcast_S128_S1x128_1 (X8 m c) := by
  show after hostOps8 (W16 m ρ c) (Proc.devRef .tc main_v73) = _
  simp (disch := decide) only [hostOps8, after_cons, after_nil, nullary_result', unary_result', binary_result', ternary_result', reshape_result', nullary_result_ne', unary_result_ne', binary_result_ne', ternary_result_ne', reshape_result_ne']
  rw [r16_arg8 m ρ c]
  exact Cert.LibUnitAxes.shapeCast_a_1a_eq_broadcastInDim _ _ _
theorem at18_v74 : W18 m ρ c (Proc.devRef .tc main_v74) = H3 m c :=
  (W18_arr m ρ c 2).trans (Cert.KernelIdeal.Bias8.arr (V17 m ρ) c _ _ (at17_v72 m ρ c) (at17_v73 m ρ c))

/-! ## The head -/

/-- The result buffer at the last boundary holds the network of the launch arguments. -/
theorem at19_v90 : W19 m ρ c (Proc.devRef .tc main_v90)
    = Cert.Spec.out (F := Ideal) (X0 m c) (X1 m c) (X2 m c) (X3 m c) (X4 m c) (X5 m c) (X6 m c) (X7 m c) (X8 m c) (X9 m c) (X10 m c) := by
  show after hostOps9 (W18 m ρ c) (Proc.devRef .tc main_v90) = _
  simp (disch := decide) only [hostOps9, after_cons, after_nil, nullary_result', unary_result', binary_result', ternary_result', reshape_result', nullary_result_ne', unary_result_ne', binary_result_ne', ternary_result_ne', reshape_result_ne']
  rw [at18_v74 m ρ c, r18_arg2 m ρ c, r18_arg9 m ρ c, r18_arg10 m ρ c]
  rfl

end Cert.KernelIdeal.Chain

end
-- ==== Proof.lean ====
/-
  A graph network — three graph-convolution layers, a mean over each graph's nodes, a linear head — computed twice:
  by a program whose matrix products, message scalings and bias additions are row-tiled kernels among host gathers and
  scatter-adds, and by a reference that does every step on the host.  Read on the extended reals the two are the same
  composition of the same operations: a row tile of a matrix product is the rows of the whole product, a tile of a
  pointwise operation is the pointwise operation on the tile's rows, and the tiles cover the arrays; a change of float
  format is the identity there.  So from memories agreeing on the arguments both programs end, with equal results,
  and no finiteness of the inputs is needed.  The idealized kernel program is the kernel program's own text (the
  sanctioned idealization rewrote nothing).
-/
import proofs.«107702_j67740224193041_2_alg».proof.Defs
import proofs.«107702_j67740224193041_2_alg».proof.Proof.Gen.Kernel
import proofs.«107702_j67740224193041_2_alg».proof.Proof.Gen.Kernel.Skeleton
import proofs.«107702_j67740224193041_2_alg».proof.Proof.Gen.Kernel.Launch
import proofs.«107702_j67740224193041_2_alg».proof.Proof.Gen.Kernel.Points
import proofs.«107702_j67740224193041_2_alg».proof.Proof.Gen.Kernel.Frame
import proofs.«107702_j67740224193041_2_alg».proof.Proof.Gen.KernelIdeal
import proofs.«107702_j67740224193041_2_alg».proof.Proof.Gen.KernelIdeal.Skeleton
import proofs.«107702_j67740224193041_2_alg».proof.Proof.Gen.KernelIdeal.Launch
import proofs.«107702_j67740224193041_2_alg».proof.Proof.Gen.KernelIdeal.Points
import proofs.«107702_j67740224193041_2_alg».proof.Proof.Gen.KernelIdeal.Frame
import proofs.«107702_j67740224193041_2_alg».proof.Proof.Gen.ReferenceIdeal
import proofs.«107702_j67740224193041_2_alg».proof.Proof.Gen.Pre_finite_inputs
import proofs.«107702_j67740224193041_2_alg».proof.Proof.RefRunPatched
import proofs.«107702_j67740224193041_2_alg».proof.Proof.Spec
import proofs.«107702_j67740224193041_2_alg».proof.Proof.RunValue
import proofs.«107702_j67740224193041_2_alg».proof.Proof.Chain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end at the network of the kernel program's launch arguments: the kernel program's by following its
    buffers through @main, the reference's because its result term is the network of its own arguments, which agree. -/
theorem algebraic : Cert.algebraic_KernelIdeal_ReferenceIdeal := by
  intro m ρ m' ρ' _ hagree
  refine ⟨fun c => Cert.Spec.out (F := Ideal) (Cert.KernelIdeal.Chain.X0 m c) (Cert.KernelIdeal.Chain.X1 m c) (Cert.KernelIdeal.Chain.X2 m c)
      (Cert.KernelIdeal.Chain.X3 m c) (Cert.KernelIdeal.Chain.X4 m c) (Cert.KernelIdeal.Chain.X5 m c) (Cert.KernelIdeal.Chain.X6 m c)
      (Cert.KernelIdeal.Chain.X7 m c) (Cert.KernelIdeal.Chain.X8 m c) (Cert.KernelIdeal.Chain.X9 m c) (Cert.KernelIdeal.Chain.X10 m c), ?_, ?_⟩
  · exact (θ_run Cert.KernelIdeal.defs _ _).mono
      (fun r h c => ⟨(h c).1.trans (Cert.KernelIdeal.Chain.at19_v90 m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5, a6, a7, a8, a9, a10⟩ := hagree c
    rw [Cert.Spec.ref_eq, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
